-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S10000x128 : Shape := ⟨2, ![10000, 128]⟩
abbrev S1700000x128 : Shape := ⟨2, ![1700000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x2 : Shape := ⟨2, ![1, 2]⟩
abbrev S256x2 : Shape := ⟨2, ![256, 2]⟩

abbrev nBuf : Space → Nat
  | .hbm => 133
  | .vmem => 22
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .f32⟩
  | 45 => ⟨S128, .f32⟩
  | 46 => ⟨S1x128, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x1, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S256x128, .f32⟩
  | 117 => ⟨S100000x1, .i32⟩
  | 118 => ⟨S256x128, .f32⟩
  | 119 => ⟨S_, .f32⟩
  | 120 => ⟨S100000, .f32⟩
  | 121 => ⟨S_, .f32⟩
  | 122 => ⟨S256, .f32⟩
  | 123 => ⟨S100000x1, .i32⟩
  | 124 => ⟨S256, .f32⟩
  | 125 => ⟨S_, .f32⟩
  | 126 => ⟨S256, .f32⟩
  | 127 => ⟨S256, .f32⟩
  | _ => ⟨S100000x128, .f32⟩

abbrev hbmTy0_1 (i : Nat) : BufTy := match i % 128 with
  | 0 => ⟨S256x1, .f32⟩
  | 1 => ⟨S256x128, .f32⟩
  | 2 => ⟨S256x128, .f32⟩
  | 3 => ⟨S1x2, .f32⟩
  | 4 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S256x128, .f32⟩
  | .local _ .vmem, ⟨19, _⟩ => ⟨S128x2, .f32⟩
  | .local _ .vmem, ⟨20, _⟩ => ⟨S1x2, .f32⟩
  | .local _ .vmem, ⟨21, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_11 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x2_S256x2_1_0_0_1_n_n_wf : DotDims.WF S256x128 S128x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S256x2.size a ≤ S256x2.size a
  hwx3_3 : ∀ i : grid3.Coords, EltTy.bits .f32 = 32 ∨ (Rect.block (s := S256x2) S256x2.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v95) S256x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S256x2.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x128, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x128, .f32⟩
  | 77 => ⟨S1700000x1, .f32⟩
  | 78 => ⟨S1700000x128, .f32⟩
  | 79 => ⟨S1700000x128, .f32⟩
  | 80 => ⟨S_, .f32⟩
  | 81 => ⟨S100000x128, .f32⟩
  | 82 => ⟨S1700000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S256x128, .f32⟩
  | 112 => ⟨S100000x1, .i32⟩
  | 113 => ⟨S256x128, .f32⟩
  | 114 => ⟨S_, .f32⟩
  | 115 => ⟨S100000, .f32⟩
  | 116 => ⟨S_, .f32⟩
  | 117 => ⟨S256, .f32⟩
  | 118 => ⟨S100000x1, .i32⟩
  | 119 => ⟨S256, .f32⟩
  | 120 => ⟨S_, .f32⟩
  | 121 => ⟨S256, .f32⟩
  | 122 => ⟨S256, .f32⟩
  | 123 => ⟨S256x1, .f32⟩
  | 124 => ⟨S256x128, .f32⟩
  | 125 => ⟨S256x128, .f32⟩
  | 126 => ⟨S256x2, .f32⟩
  | 127 => ⟨S1x2, .f32⟩
  | _ => ⟨S100000x128, .f32⟩

abbrev hbmTy0_1 (i : Nat) : BufTy := match i % 128 with
  | 0 => ⟨S256x2, .f32⟩
  | 1 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x2_S256x2_1_0_0_1_n_n_wf : DotDims.WF S256x128 S128x2 S256x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

class Facts : Prop extends Facts₀ where

variable [Facts]
-- ==== Proof.KernelRun.lean ====
/-
  The idealized kernel program's run, with its RESULT read.  The program is four dense-layer launches among
  stretches of host operations; its run from the launch memory passes through thirteen boundary contents
  `Gen.W0 … Gen.W12` (a host stretch applies its operations in order; a launch replaces its four arrays by
  what its write-backs leave and keeps every other buffer).  Every weakly fair execution terminates with each
  unscoped buffer at the last boundary's contents: the eleven arguments as launched, and the returned array
  `main_v97` at `Gen.W12 … main_v97`, which the later modules compute.
-/
import proofs.«154548_j48369921688195_1_alg».proof.Proof.Gen.KernelIdeal.Frame

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the returned array ends at the last
    boundary's contents and the arguments end as launched. -/
theorem run_result : θ_run defs (onTc (τ := τ) (main (F := F))) ⟨m, fun _ => 0, ρ⟩ (fun r => ∀ c : Dev nD,
      r.2.mem ((c.tc : Thread nD τ).loc main_v97) = W12 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v97 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Whole

end
-- ==== Proof.LibConcat2.lean ====
/-
  A concatenation of two pieces as a function of the two pieces.

  The concatenation of a list of (shape, array) pairs carries a fact about the list of shapes, so replacing a piece
  by an equal piece is not a plain substitution in the list. With exactly two pieces the shapes are fixed and only the
  arrays vary: the concatenation is a function of the two arrays, and equal arrays give equal concatenations.
-/
import Idealize.ShloMosaic.PureOps.ShapeOps

namespace Cert.Concat2

open Idealize.ShloMosaic

/-- The concatenation of two pieces along an axis, the pieces as plain arguments. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is that function of its pieces. -/
theorem concatenate_pair_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concat2 t a s₁ s₂ h x₁ x₂ := rfl

/-- Two pieces that agree one by one concatenate to the same array. -/
theorem concat_pair_congr {α : Type} (t : Shape) (a : Fin t.rank) (s₁ s₂ : Shape) (h : Shape.Concatenates [s₁, s₂] t a)
    {x₁ y₁ : s₁.Idx → α} {x₂ y₂ : s₂.Idx → α} (e₁ : x₁ = y₁) (e₂ : x₂ = y₂) :
    concatenate t a [⟨s₁, x₁⟩, ⟨s₂, x₂⟩] h = concatenate t a [⟨s₁, y₁⟩, ⟨s₂, y₂⟩] h := by
  subst e₁ e₂; rfl

end Cert.Concat2
-- ==== Proof.KernelStages.lean ====
/-
  The host stretches of the idealized kernel program, each read as the reference's own stages.

  Between its four dense-layer launches the kernel program runs the SAME host operations as the reference, on
  buffers that are only numbered differently: the edge lists with self-loops (source `main_v3`, destination
  `main_v6`), the symmetric degree normalisation `main_v26`, then per layer "gather the dense layer's rows at
  the sources, scale by the normalisation, scatter-add at the destinations, add the bias", a `max` with zero after
  the first two layers, and at the end the mean pool over the graph ids.  So, from ANY buffer contents `W` whose
  inputs hold the reference's stages (the hypotheses), a stretch leaves its outputs at the reference's next stages
  (`Cert.ReferenceIdeal.Read.val_main_v…`): the operations are applied in order and the two terms are one term.
  The kernel program's own extras are the zero bias row it feeds each of the first three launches (a broadcast zero,
  reshaped to one row) and the last layer's bias reshaped to one row.  A stretch leaves every buffer it does not
  write as it was.
-/
import proofs.«154548_j48369921688195_1_alg».proof.Proof.Gen.KernelIdeal.Launch
import proofs.«154548_j48369921688195_1_alg».proof.Proof.Gen.ReferenceIdeal.Read
import Idealize.ShloMosaic.Lib.StableHlo.Run
import proofs.«154548_j48369921688195_1_alg».proof.Proof.LibConcat2

noncomputable section

namespace Cert.KernelIdeal.Whole

open Idealize.ShloMosaic Idealize.ShloMosaic.TcCoe Idealize.ShloMosaic.StableHlo
open Cert.KernelIdeal Cert.KernelIdeal.Gen
open Cert.ReferenceIdeal.Read

/-- The zero vector of 128 entries the kernel program broadcasts once and feeds, as one row, to each of the
    first three launches as their bias. -/
def zeros128 : (⟨S128, .f32⟩ : BufTy).Contents (Elt Ideal) :=
  broadcastInDim S128 ![] bcast_S_S128 (constant (F := Ideal) S_ .f32 0x00000000#32)

/-- One pass over a line of host operations: each operation's result at its own result buffer is its function of its
    operands' contents, at any other buffer what was there; a two-piece concatenation is read as a function of its two
    pieces, so that the pass goes on inside them. -/
macro "stretch_results" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      Cert.Concat2.concatenate_pair_eq]))

variable (W : Valuation τ sig (Elt Ideal))

/-! ## The first stretch: edge lists, normalisation, the zero bias row -/

section Stretch0
variable (x1 : (⟨S2x1600000, .i32⟩ : BufTy).Contents (Elt Ideal)) (h1 : W (Proc.devRef .tc main_arg1) = x1)
include h1

theorem s0_v3 : after hostOps0 W (Proc.devRef .tc main_v3) = val_main_v3 (F := Ideal) x1 := by
  stretch_results; rw [h1]; rfl
theorem s0_v6 : after hostOps0 W (Proc.devRef .tc main_v6) = val_main_v6 (F := Ideal) x1 := by
  stretch_results; rw [h1]; rfl
set_option maxHeartbeats 4000000 in
theorem s0_v26 : after hostOps0 W (Proc.devRef .tc main_v26) = val_main_v26 (F := Ideal) x1 := by
  stretch_results; rw [h1]; rfl
end Stretch0

theorem s0_v27 : after hostOps0 W (Proc.devRef .tc main_v27) = zeros128 := by
  stretch_results; rfl
theorem s0_v28 : after hostOps0 W (Proc.devRef .tc main_v28) = shapeCast S1x128 zeros128 shapeCasts_S128_S1x128 := by
  stretch_results; rfl
theorem s0_arg0 : after hostOps0 W (Proc.devRef .tc main_arg0) = W (Proc.devRef .tc main_arg0) := by stretch_results
theorem s0_arg2 : after hostOps0 W (Proc.devRef .tc main_arg2) = W (Proc.devRef .tc main_arg2) := by stretch_results
theorem s0_arg3 : after hostOps0 W (Proc.devRef .tc main_arg3) = W (Proc.devRef .tc main_arg3) := by stretch_results
theorem s0_arg4 : after hostOps0 W (Proc.devRef .tc main_arg4) = W (Proc.devRef .tc main_arg4) := by stretch_results
theorem s0_arg5 : after hostOps0 W (Proc.devRef .tc main_arg5) = W (Proc.devRef .tc main_arg5) := by stretch_results
theorem s0_arg6 : after hostOps0 W (Proc.devRef .tc main_arg6) = W (Proc.devRef .tc main_arg6) := by stretch_results
theorem s0_arg7 : after hostOps0 W (Proc.devRef .tc main_arg7) = W (Proc.devRef .tc main_arg7) := by stretch_results
theorem s0_arg8 : after hostOps0 W (Proc.devRef .tc main_arg8) = W (Proc.devRef .tc main_arg8) := by stretch_results
theorem s0_arg9 : after hostOps0 W (Proc.devRef .tc main_arg9) = W (Proc.devRef .tc main_arg9) := by stretch_results
theorem s0_arg10 : after hostOps0 W (Proc.devRef .tc main_arg10) = W (Proc.devRef .tc main_arg10) := by stretch_results

/-! ## After the first launch: the first layer's aggregation, bias and `max` with zero -/

/-- Inside the outlined `max` with zero the buffers are read at their tensor types: on literal buffers that is the
    identity. -/
theorem toBuf_v46 (p1 p2 p3) (v : (⟨S100000x128, .f32⟩ : BufTy).Contents (Elt Ideal)) :
    (TRef.of (sig := sig) (T := ⟨S100000x128, .f32⟩) main_v46 p1 p2 p3).toBuf v = v := rfl
theorem ofBuf_v45 (p1 p2 p3) (v : (⟨S100000x128, .f32⟩ : BufTy).Contents (Elt Ideal)) :
    (TRef.of (sig := sig) (T := ⟨S100000x128, .f32⟩) main_v45 p1 p2 p3).ofBuf v = v := rfl
theorem ofBuf_call0_v0 (p1 p2 p3) (v : (⟨S100000x128, .f32⟩ : BufTy).Contents (Elt Ideal)) :
    (TRef.of (sig := sig) (T := ⟨S100000x128, .f32⟩) main_call0_v0 p1 p2 p3).ofBuf v = v := rfl
theorem toBuf_call0_v0 (p1 p2 p3) (v : (⟨S100000x128, .f32⟩ : BufTy).Contents (Elt Ideal)) :
    (TRef.of (sig := sig) (T := ⟨S100000x128, .f32⟩) main_call0_v0 p1 p2 p3).toBuf v = v := rfl
theorem ofBuf_call0_cst (p1 p2 p3) (v : (⟨S_, .f32⟩ : BufTy).Contents (Elt Ideal)) :
    (TRef.of (sig := sig) (T := ⟨S_, .f32⟩) main_call0_cst p1 p2 p3).ofBuf v = v := rfl
theorem toBuf_call0_cst (p1 p2 p3) (v : (⟨S_, .f32⟩ : BufTy).Contents (Elt Ideal)) :
    (TRef.of (sig := sig) (T := ⟨S_, .f32⟩) main_call0_cst p1 p2 p3).toBuf v = v := rfl

section Stretch1
variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
  (h29 : W (Proc.devRef .tc main_v29) = val_main_v27 (F := Ideal) x0 x3)
  (h3 : W (Proc.devRef .tc main_v3) = val_main_v3 (F := Ideal) x1)
  (h6 : W (Proc.devRef .tc main_v6) = val_main_v6 (F := Ideal) x1)
  (h26 : W (Proc.devRef .tc main_v26) = val_main_v26 (F := Ideal) x1)
  (h4 : W (Proc.devRef .tc main_arg4) = x4)
include h29 h3 h6 h26 h4

set_option maxHeartbeats 4000000 in
theorem s1_v46 : after hostOps1_2 (after hostOps1_1 (after hostOps1 W)) (Proc.devRef .tc main_v46) = val_main_v44 (F := Ideal) x0 x1 x3 x4 := by
  stretch_results; rw [h29, h3, h6, h26, h4]
  rw [toBuf_v46, ofBuf_v45, ofBuf_call0_v0, toBuf_call0_v0, ofBuf_call0_cst, toBuf_call0_cst]
  rfl
end Stretch1

theorem s1_v47 : after hostOps1_2 (after hostOps1_1 (after hostOps1 W)) (Proc.devRef .tc main_v47)
    = shapeCast S1x128 (W (Proc.devRef .tc main_v27)) shapeCasts_S128_S1x128 := by
  stretch_results; rfl
theorem s1_v3 : after hostOps1_2 (after hostOps1_1 (after hostOps1 W)) (Proc.devRef .tc main_v3) = W (Proc.devRef .tc main_v3) := by stretch_results
theorem s1_v6 : after hostOps1_2 (after hostOps1_1 (after hostOps1 W)) (Proc.devRef .tc main_v6) = W (Proc.devRef .tc main_v6) := by stretch_results
theorem s1_v26 : after hostOps1_2 (after hostOps1_1 (after hostOps1 W)) (Proc.devRef .tc main_v26) = W (Proc.devRef .tc main_v26) := by stretch_results
theorem s1_v27 : after hostOps1_2 (after hostOps1_1 (after hostOps1 W)) (Proc.devRef .tc main_v27) = W (Proc.devRef .tc main_v27) := by stretch_results
theorem s1_arg2 : after hostOps1_2 (after hostOps1_1 (after hostOps1 W)) (Proc.devRef .tc main_arg2) = W (Proc.devRef .tc main_arg2) := by stretch_results
theorem s1_arg5 : after hostOps1_2 (after hostOps1_1 (after hostOps1 W)) (Proc.devRef .tc main_arg5) = W (Proc.devRef .tc main_arg5) := by stretch_results
theorem s1_arg6 : after hostOps1_2 (after hostOps1_1 (after hostOps1 W)) (Proc.devRef .tc main_arg6) = W (Proc.devRef .tc main_arg6) := by stretch_results
theorem s1_arg7 : after hostOps1_2 (after hostOps1_1 (after hostOps1 W)) (Proc.devRef .tc main_arg7) = W (Proc.devRef .tc main_arg7) := by stretch_results
theorem s1_arg8 : after hostOps1_2 (after hostOps1_1 (after hostOps1 W)) (Proc.devRef .tc main_arg8) = W (Proc.devRef .tc main_arg8) := by stretch_results
theorem s1_arg9 : after hostOps1_2 (after hostOps1_1 (after hostOps1 W)) (Proc.devRef .tc main_arg9) = W (Proc.devRef .tc main_arg9) := by stretch_results
theorem s1_arg10 : after hostOps1_2 (after hostOps1_1 (after hostOps1 W)) (Proc.devRef .tc main_arg10) = W (Proc.devRef .tc main_arg10) := by stretch_results

/-! ## After the second launch: the second layer's aggregation, bias and `max` with zero -/

/-- Inside the outlined `max` with zero the buffers are read at their tensor types: on literal buffers that is the
    identity. -/
theorem toBuf_v65 (p1 p2 p3) (v : (⟨S100000x128, .f32⟩ : BufTy).Contents (Elt Ideal)) :
    (TRef.of (sig := sig) (T := ⟨S100000x128, .f32⟩) main_v65 p1 p2 p3).toBuf v = v := rfl
theorem ofBuf_v64 (p1 p2 p3) (v : (⟨S100000x128, .f32⟩ : BufTy).Contents (Elt Ideal)) :
    (TRef.of (sig := sig) (T := ⟨S100000x128, .f32⟩) main_v64 p1 p2 p3).ofBuf v = v := rfl
theorem ofBuf_call1_v0 (p1 p2 p3) (v : (⟨S100000x128, .f32⟩ : BufTy).Contents (Elt Ideal)) :
    (TRef.of (sig := sig) (T := ⟨S100000x128, .f32⟩) main_call1_v0 p1 p2 p3).ofBuf v = v := rfl
theorem toBuf_call1_v0 (p1 p2 p3) (v : (⟨S100000x128, .f32⟩ : BufTy).Contents (Elt Ideal)) :
    (TRef.of (sig := sig) (T := ⟨S100000x128, .f32⟩) main_call1_v0 p1 p2 p3).toBuf v = v := rfl
theorem ofBuf_call1_cst (p1 p2 p3) (v : (⟨S_, .f32⟩ : BufTy).Contents (Elt Ideal)) :
    (TRef.of (sig := sig) (T := ⟨S_, .f32⟩) main_call1_cst p1 p2 p3).ofBuf v = v := rfl
theorem toBuf_call1_cst (p1 p2 p3) (v : (⟨S_, .f32⟩ : BufTy).Contents (Elt Ideal)) :
    (TRef.of (sig := sig) (T := ⟨S_, .f32⟩) main_call1_cst p1 p2 p3).toBuf v = v := rfl

section Stretch2
variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (h48 : W (Proc.devRef .tc main_v48) = val_main_v45 (F := Ideal) x0 x1 x3 x4 x5)
  (h3 : W (Proc.devRef .tc main_v3) = val_main_v3 (F := Ideal) x1)
  (h6 : W (Proc.devRef .tc main_v6) = val_main_v6 (F := Ideal) x1)
  (h26 : W (Proc.devRef .tc main_v26) = val_main_v26 (F := Ideal) x1)
  (h6' : W (Proc.devRef .tc main_arg6) = x6)
include h48 h3 h6 h26 h6'

set_option maxHeartbeats 4000000 in
theorem s2_v65 : after hostOps2_2 (after hostOps2_1 (after hostOps2 W)) (Proc.devRef .tc main_v65) = val_main_v62 (F := Ideal) x0 x1 x3 x4 x5 x6 := by
  stretch_results; rw [h48, h3, h6, h26, h6']
  rw [toBuf_v65, ofBuf_v64, ofBuf_call1_v0, toBuf_call1_v0, ofBuf_call1_cst, toBuf_call1_cst]
  rfl
end Stretch2

theorem s2_v66 : after hostOps2_2 (after hostOps2_1 (after hostOps2 W)) (Proc.devRef .tc main_v66)
    = shapeCast S1x128 (W (Proc.devRef .tc main_v27)) shapeCasts_S128_S1x128 := by
  stretch_results; rfl
theorem s2_v3 : after hostOps2_2 (after hostOps2_1 (after hostOps2 W)) (Proc.devRef .tc main_v3) = W (Proc.devRef .tc main_v3) := by stretch_results
theorem s2_v6 : after hostOps2_2 (after hostOps2_1 (after hostOps2 W)) (Proc.devRef .tc main_v6) = W (Proc.devRef .tc main_v6) := by stretch_results
theorem s2_v26 : after hostOps2_2 (after hostOps2_1 (after hostOps2 W)) (Proc.devRef .tc main_v26) = W (Proc.devRef .tc main_v26) := by stretch_results
theorem s2_arg2 : after hostOps2_2 (after hostOps2_1 (after hostOps2 W)) (Proc.devRef .tc main_arg2) = W (Proc.devRef .tc main_arg2) := by stretch_results
theorem s2_arg7 : after hostOps2_2 (after hostOps2_1 (after hostOps2 W)) (Proc.devRef .tc main_arg7) = W (Proc.devRef .tc main_arg7) := by stretch_results
theorem s2_arg8 : after hostOps2_2 (after hostOps2_1 (after hostOps2 W)) (Proc.devRef .tc main_arg8) = W (Proc.devRef .tc main_arg8) := by stretch_results
theorem s2_arg9 : after hostOps2_2 (after hostOps2_1 (after hostOps2 W)) (Proc.devRef .tc main_arg9) = W (Proc.devRef .tc main_arg9) := by stretch_results
theorem s2_arg10 : after hostOps2_2 (after hostOps2_1 (after hostOps2 W)) (Proc.devRef .tc main_arg10) = W (Proc.devRef .tc main_arg10) := by stretch_results

/-! ## After the third launch: the third layer's aggregation and bias, the mean pool, the head's bias row -/

section Stretch3
variable (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
  (h67 : W (Proc.devRef .tc main_v67) = val_main_v63 (F := Ideal) x0 x1 x3 x4 x5 x6 x7)
  (h3 : W (Proc.devRef .tc main_v3) = val_main_v3 (F := Ideal) x1)
  (h6 : W (Proc.devRef .tc main_v6) = val_main_v6 (F := Ideal) x1)
  (h26 : W (Proc.devRef .tc main_v26) = val_main_v26 (F := Ideal) x1)
  (h8 : W (Proc.devRef .tc main_arg8) = x8)
  (h2 : W (Proc.devRef .tc main_arg2) = x2)
include h67 h3 h6 h26 h8 h2

set_option maxHeartbeats 4000000 in
theorem s3_v95 : after hostOps3 W (Proc.devRef .tc main_v95) = val_main_v91 (F := Ideal) x0 x1 x2 x3 x4 x5 x6 x7 x8 := by
  stretch_results; rw [h67, h3, h6, h26, h8, h2]; rfl
end Stretch3

theorem s3_v96 : after hostOps3 W (Proc.devRef .tc main_v96)
    = shapeCast S1x2 (W (Proc.devRef .tc main_arg10)) shapeCasts_S2_S1x2 := by
  stretch_results; rfl
theorem s3_arg9 : after hostOps3 W (Proc.devRef .tc main_arg9) = W (Proc.devRef .tc main_arg9) := by stretch_results
theorem s3_arg10 : after hostOps3 W (Proc.devRef .tc main_arg10) = W (Proc.devRef .tc main_arg10) := by stretch_results

end Cert.KernelIdeal.Whole

end
-- ==== Proof.DenseIsDot.lean ====
/-
  A dense layer, read entry by entry, IS the reference's matrix product.

  A launch of the kernel's one body leaves in its output array, at row `r` and column `j`,
  `(Σ_k x[r,k] · w[k,j]) + b[0,j]` on the extended reals (the two roundings to a narrower float format are the
  identity there, and the zero accumulator contributes nothing).  The reference's `dot_general` of the same
  contraction is the same sum entry by entry.  In the three hidden layers the kernel's bias row is the zero row,
  and `a + 0 = a` for every extended real `a`, infinite ones included; the hidden biases are added later by both
  programs in the same way.  In the head the bias row is the last layer's bias reshaped to one row, and the
  reference adds the same bias broadcast over the rows: the same entry `b[j]`.
  No finiteness of any operand is used.
-/
import proofs.«154548_j48369921688195_1_alg».proof.Proof.KernelStages
import Idealize.ShloMosaic.Lib.ValueIdx
import Idealize.ShloMosaic.Lib.Pipeline.Value
import Idealize.ShloMosaic.PureOps.Ideal.Laws

noncomputable section

open scoped BigOperators

namespace Cert.KernelIdeal.Whole

open Idealize.ShloMosaic Idealize.ShloMosaic.ValueIdx
open Cert.KernelIdeal Cert.KernelIdeal.Gen
open Cert.ReferenceIdeal.Read

/-- The zero bias row: every entry is the real number zero. -/
theorem zero_row (v : (⟨S128, .f32⟩ : BufTy).Contents (Elt Ideal)) (hv : v = zeros128) (j : Fin 128) :
    shapeCast S1x128 v shapeCasts_S128_S1x128 (ix2 0 j) = 0 := by
  subst hv
  rw [shapeCast_apply zeros128 shapeCasts_S128_S1x128 (ix2 0 j) (ix1 j)
    (by rewrite [Shape.rowMajor_val_two, Shape.rowMajor_val_one]; show j.val = 0 * 128 + j.val; omega)]
  unfold zeros128
  rw [broadcastInDim_apply _ bcast_S_S128 _ (ix1 j) ix0 (fun a => a.elim0)]
  exact Ideal.ofBits_zero_f32

/-- A hidden layer: an array holding `(Σ_k x[r,k] · w[k,j]) + b[0,j]` with `b` the zero row is the reference's
    matrix product of `x` and `w`. -/
theorem dense_eq_dot (x : (⟨S100000x128, .f32⟩ : BufTy).Contents (Elt Ideal)) (w : (⟨S128x128, .f32⟩ : BufTy).Contents (Elt Ideal))
    (b : (⟨S1x128, .f32⟩ : BufTy).Contents (Elt Ideal)) (o : (⟨S100000x128, .f32⟩ : BufTy).Contents (Elt Ideal))
    (hb : ∀ j : Fin 128, b (ix2 0 j) = 0)
    (ho : ∀ (r : Fin 100000) (j : Fin 128), o (ix2 r j) = (∑ k : Fin 128, x (ix2 r k) * w (ix2 k j)) + b (ix2 0 j)) :
    o = val_main_v27 (F := Ideal) x w := by
  funext i
  obtain ⟨r, j, rfl⟩ : ∃ (r : Fin 100000) (j : Fin 128), i = ix2 r j := ⟨i 0, i 1, eq_ix2 i⟩
  rw [ho, hb, add_zero]
  refine ((val_main_v27_apply x w (ix2 r j)).trans ?_).symm
  refine Finset.sum_congr rfl fun k _ => ?_
  have el : lidx_main_v27 (ix2 r j) k = ix2 r k := funext fun a => Fin.ext (by
    match a with
    | ⟨0, _⟩ => rfl
    | ⟨1, _⟩ => rfl)
  have er : ridx_main_v27 (ix2 r j) k = ix2 k j := funext fun a => Fin.ext (by
    match a with
    | ⟨0, _⟩ => rfl
    | ⟨1, _⟩ => rfl)
  rw [el, er]

/-- The head: an array holding `(Σ_k p[r,k] · w[k,j]) + b[j]`, the bias read through its one-row reshape, with
    `p` the reference's pooled features, is the reference's result. -/
theorem head_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal))
    (o : (⟨S256x2, .f32⟩ : BufTy).Contents (Elt Ideal))
    (ho : ∀ (r : Fin 256) (j : Fin 2), o (ix2 r j)
      = (∑ k : Fin 128, val_main_v91 (F := Ideal) x0 x1 x2 x3 x4 x5 x6 x7 x8 (ix2 r k) * x9 (ix2 k j))
        + shapeCast S1x2 x10 shapeCasts_S2_S1x2 (ix2 0 j)) :
    o = val_main_v95 (F := Ideal) x0 x1 x2 x3 x4 x5 x6 x7 x8 x9 x10 := by
  funext i
  obtain ⟨r, j, rfl⟩ : ∃ (r : Fin 256) (j : Fin 2), i = ix2 r j := ⟨i 0, i 1, eq_ix2 i⟩
  rw [ho]
  refine ((val_main_v95_apply x0 x1 x2 x3 x4 x5 x6 x7 x8 x9 x10 (ix2 r j)).trans ?_).symm
  rw [val_main_v92_apply, val_main_v94_apply, val_main_v93_apply]
  have eb : shapeCast S1x2 x10 shapeCasts_S2_S1x2 (ix2 0 j) = x10 (idx_main_v93 (idx_main_v94 (ix2 r j))) := by
    rw [shapeCast_apply x10 shapeCasts_S2_S1x2 (ix2 0 j) (ix1 j)
      (by rewrite [Shape.rowMajor_val_two, Shape.rowMajor_val_one]; show j.val = 0 * 2 + j.val; omega)]
    exact congrArg x10 (funext fun a => Fin.ext (by
      match a with
      | ⟨0, _⟩ => rfl))
  rw [eb]
  refine congrArg (· + x10 (idx_main_v93 (idx_main_v94 (ix2 r j)))) ?_
  refine Finset.sum_congr rfl fun k _ => ?_
  have el : lidx_main_v92 (ix2 r j) k = ix2 r k := funext fun a => Fin.ext (by
    match a with
    | ⟨0, _⟩ => rfl
    | ⟨1, _⟩ => rfl)
  have er : ridx_main_v92 (ix2 r j) k = ix2 k j := funext fun a => Fin.ext (by
    match a with
    | ⟨0, _⟩ => rfl
    | ⟨1, _⟩ => rfl)
  rw [el, er]

end Cert.KernelIdeal.Whole

end
-- ==== Proof.DenseBody.lean ====
import proofs.«154548_j48369921688195_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The dense layer's body at one entry

Every dense layer of the network is one body: both operands are rounded to a narrower float format,
multiplied as matrices into a zero accumulator, and the one-row bias is added to every row.  On the
extended reals a change of float format is the identity and a product into the zero accumulator is the
plain sum, so entry `(r, j)` of what the body stores is

  `∑ k, x (r, k) * w (k, j) + b (0, j)`.

This module proves that, for the row block of 10000 rows by 128 features (three layers) and for the
pooled 256 rows by 2 classes (the last layer).
-/

noncomputable section

open scoped BigOperators

namespace Cert.KernelIdeal.Dense

open Idealize.ShloMosaic Idealize.ShloMosaic.ValueIdx Cert.KernelIdeal Cert.KernelIdeal.Gen

/-! ## The matrix product into a zero accumulator: a row block of 10000 rows -/

/-- Axis 0 of the left operand's index is the result's row. -/
theorem rows_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- Axis 1 of the left operand's index is the summation index. -/
theorem rows_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- Axis 0 of the right operand's index is the summation index. -/
theorem rows_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- Axis 1 of the right operand's index is the result's column. -/
theorem rows_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A row block times the weights, into the zero accumulator: entry `(r, j)` is the sum over the 128
    features of `x (r, k) * w (k, j)`. -/
theorem rows_matmul_apply (x : FVec Ideal S10000x128 .bf16) (w : FVec Ideal S128x128 .bf16) (r : Fin 10000) (j : Fin 128) :
    matmul dot_S10000x128_S128x128_S10000x128_1_0_0_1_n_n none x w (constant S10000x128 .f32 0x00000000#32) (ix2 r j)
      = ∑ k : Fin 128, x (ix2 r k) * w (ix2 k j) := by
  refine (Ideal.matmul_constant_zero_apply dot_S10000x128_S128x128_S10000x128_1_0_0_1_n_n none x w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ => exact rows_lhs_0 _ _
    | ⟨1, _⟩ => exact (rows_lhs_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact (rows_rhs_0 _ _).trans hk
    | ⟨1, _⟩ => exact rows_rhs_1 _ _)
  rw [el, er]

/-! ## The body of the three wide layers -/

/-- Entry `(r, j)` of the first layer's body on a row block. -/
theorem pay0_apply (v0 : Vec Ideal S10000x128 .f32) (v2 : Vec Ideal S128x128 .f32) (v5 : Vec Ideal S1x128 .f32)
    (r : Fin 10000) (j : Fin 128) :
    k0_pay1 v0 v2 v5 (ix2 r j) = (∑ k : Fin 128, v0 (ix2 r k) * v2 (ix2 k j)) + v5 (ix2 0 j) := by
  unfold k0_pay1
  refine (addf_apply _ _ (ix2 r j)).trans ?_
  refine congrArg₂ (· + ·) ?_ ?_
  · exact rows_matmul_apply _ _ r j
  · refine (broadcastTo_1b_ab_apply _ broadcasts_S1x128_S10000x128 r j).trans ?_
    rw [shapeCast_self]

/-- Entry `(r, j)` of the second layer's body on a row block (the block is first cast to its own shape, which
    changes nothing). -/
theorem pay1_apply (v0 : Vec Ideal S10000x128 .f32) (v3 : Vec Ideal S128x128 .f32) (v6 : Vec Ideal S1x128 .f32)
    (r : Fin 10000) (j : Fin 128) :
    k1_pay1 v0 v3 v6 (ix2 r j) = (∑ k : Fin 128, v0 (ix2 r k) * v3 (ix2 k j)) + v6 (ix2 0 j) := by
  unfold k1_pay1
  refine (addf_apply _ _ (ix2 r j)).trans ?_
  refine congrArg₂ (· + ·) ?_ ?_
  · refine (rows_matmul_apply _ _ r j).trans ?_
    rw [shapeCast_self]
    rfl
  · refine (broadcastTo_1b_ab_apply _ broadcasts_S1x128_S10000x128 r j).trans ?_
    rw [shapeCast_self]

/-- Entry `(r, j)` of the third layer's body on a row block (the block is first cast to its own shape, which
    changes nothing). -/
theorem pay2_apply (v0 : Vec Ideal S10000x128 .f32) (v3 : Vec Ideal S128x128 .f32) (v6 : Vec Ideal S1x128 .f32)
    (r : Fin 10000) (j : Fin 128) :
    k2_pay1 v0 v3 v6 (ix2 r j) = (∑ k : Fin 128, v0 (ix2 r k) * v3 (ix2 k j)) + v6 (ix2 0 j) := by
  unfold k2_pay1
  refine (addf_apply _ _ (ix2 r j)).trans ?_
  refine congrArg₂ (· + ·) ?_ ?_
  · refine (rows_matmul_apply _ _ r j).trans ?_
    rw [shapeCast_self]
    rfl
  · refine (broadcastTo_1b_ab_apply _ broadcasts_S1x128_S10000x128 r j).trans ?_
    rw [shapeCast_self]

/-! ## The last layer: 256 pooled rows, 2 classes -/

/-- Axis 0 of the left operand's index is the result's row. -/
theorem pooled_lhs_0 (i : S256x2.Idx) (q : dot_S256x128_S128x2_S256x2_1_0_0_1_n_n.contr.Idx) :
    (dot_S256x128_S128x2_S256x2_1_0_0_1_n_n.lhsIdx i q 0).val = (i 0).val := by
  unfold DotDims.lhsIdx
  rw [dif_neg (show ¬(0 : Fin S256x128.rank) ∈ dot_S256x128_S128x2_S256x2_1_0_0_1_n_n.lhsBatch by decide), dif_pos (show (0 : Fin S256x128.rank) ∈ dot_S256x128_S128x2_S256x2_1_0_0_1_n_n.lhsNonContracting by decide)]
  rfl

/-- Axis 1 of the left operand's index is the summation index. -/
theorem pooled_lhs_1 (i : S256x2.Idx) (q : dot_S256x128_S128x2_S256x2_1_0_0_1_n_n.contr.Idx) :
    (dot_S256x128_S128x2_S256x2_1_0_0_1_n_n.lhsIdx i q 1).val = (q ⟨0, by decide⟩).val :=
  dot_S256x128_S128x2_S256x2_1_0_0_1_n_n.lhsIdx_val_of_single rfl i q

/-- Axis 0 of the right operand's index is the summation index. -/
theorem pooled_rhs_0 (i : S256x2.Idx) (q : dot_S256x128_S128x2_S256x2_1_0_0_1_n_n.contr.Idx) :
    (dot_S256x128_S128x2_S256x2_1_0_0_1_n_n.rhsIdx i q 0).val = (q ⟨0, by decide⟩).val :=
  dot_S256x128_S128x2_S256x2_1_0_0_1_n_n.rhsIdx_val_of_single rfl i q

/-- Axis 1 of the right operand's index is the result's column. -/
theorem pooled_rhs_1 (i : S256x2.Idx) (q : dot_S256x128_S128x2_S256x2_1_0_0_1_n_n.contr.Idx) :
    (dot_S256x128_S128x2_S256x2_1_0_0_1_n_n.rhsIdx i q 1).val = (i 1).val := by
  unfold DotDims.rhsIdx
  rw [dif_neg (show ¬(1 : Fin S128x2.rank) ∈ dot_S256x128_S128x2_S256x2_1_0_0_1_n_n.rhsBatch by decide), dif_pos (show (1 : Fin S128x2.rank) ∈ dot_S256x128_S128x2_S256x2_1_0_0_1_n_n.rhsNonContracting by decide)]
  rfl

/-- The pooled rows times the weights, into the zero accumulator: entry `(r, j)` is the sum over the 128
    features of `x (r, k) * w (k, j)`. -/
theorem pooled_matmul_apply (x : FVec Ideal S256x128 .bf16) (w : FVec Ideal S128x2 .bf16) (r : Fin 256) (j : Fin 2) :
    matmul dot_S256x128_S128x2_S256x2_1_0_0_1_n_n none x w (constant S256x2 .f32 0x00000000#32) (ix2 r j)
      = ∑ k : Fin 128, x (ix2 r k) * w (ix2 k j) := by
  refine (Ideal.matmul_constant_zero_apply dot_S256x128_S128x2_S256x2_1_0_0_1_n_n none x w (ix2 r j)).trans ?_
  rw [← Equiv.sum_comp (contrEquiv1 dot_S256x128_S128x2_S256x2_1_0_0_1_n_n 128 rfl rfl).symm]
  refine Finset.sum_congr rfl fun k _ => ?_
  have hk := contrEquiv1_symm_val dot_S256x128_S128x2_S256x2_1_0_0_1_n_n 128 rfl rfl k
  have el : dot_S256x128_S128x2_S256x2_1_0_0_1_n_n.lhsIdx (ix2 r j) ((contrEquiv1 dot_S256x128_S128x2_S256x2_1_0_0_1_n_n 128 rfl rfl).symm k) = ix2 r k := funext fun a => Fin.ext (by
    match a with
    | ⟨0, _⟩ => exact pooled_lhs_0 _ _
    | ⟨1, _⟩ => exact (pooled_lhs_1 _ _).trans hk)
  have er : dot_S256x128_S128x2_S256x2_1_0_0_1_n_n.rhsIdx (ix2 r j) ((contrEquiv1 dot_S256x128_S128x2_S256x2_1_0_0_1_n_n 128 rfl rfl).symm k) = ix2 k j := funext fun a => Fin.ext (by
    match a with
    | ⟨0, _⟩ => exact (pooled_rhs_0 _ _).trans hk
    | ⟨1, _⟩ => exact pooled_rhs_1 _ _)
  rw [el, er]

/-- Entry `(r, j)` of the last layer's body. -/
theorem pay3_apply (v0 : Vec Ideal S256x128 .f32) (v3 : Vec Ideal S128x2 .f32) (v6 : Vec Ideal S1x2 .f32)
    (r : Fin 256) (j : Fin 2) :
    k3_pay1 v0 v3 v6 (ix2 r j) = (∑ k : Fin 128, v0 (ix2 r k) * v3 (ix2 k j)) + v6 (ix2 0 j) := by
  unfold k3_pay1
  refine (addf_apply _ _ (ix2 r j)).trans ?_
  refine congrArg₂ (· + ·) ?_ ?_
  · refine (pooled_matmul_apply _ _ r j).trans ?_
    rw [shapeCast_self]
    rfl
  · refine (broadcastTo_1b_ab_apply _ broadcasts_S1x2_S256x2 r j).trans ?_
    rw [shapeCast_self]

/-! ## The dense layer on whole arrays -/

/-- The dense layer as one function of its three whole arrays: entry `i` of the result is the sum over the
    128 features of `X (row of i, k) * W (k, column of i)`, plus the bias row at the column of `i`. -/
def dense (R C : Nat) (X : (⟨2, ![R, 128]⟩ : Shape).Idx → EReal) (W : (⟨2, ![128, C]⟩ : Shape).Idx → EReal)
    (B : (⟨2, ![1, C]⟩ : Shape).Idx → EReal) : (⟨2, ![R, C]⟩ : Shape).Idx → EReal :=
  fun i => (∑ k : Fin 128, X (ix2 (n0 := R) (n1 := 128) (i 0) k) * W (ix2 (n0 := 128) (n1 := C) k (i 1)))
    + B (ix2 (n0 := 1) (n1 := C) 0 (i 1))

/-- The dense layer at the entry with coordinates `(r, j)`. -/
theorem dense_apply (R C : Nat) (X : (⟨2, ![R, 128]⟩ : Shape).Idx → EReal) (W : (⟨2, ![128, C]⟩ : Shape).Idx → EReal)
    (B : (⟨2, ![1, C]⟩ : Shape).Idx → EReal) (r : Fin R) (j : Fin C) :
    dense R C X W B (ix2 r j) = (∑ k : Fin 128, X (ix2 r k) * W (ix2 k j)) + B (ix2 0 j) := rfl

/-- A row block's entry is the whole arrays' entry: if the block of `x` holds rows `10000 q … 10000 q + 9999` of
    `X`, and the weights and the bias are read whole, then the body's formula at block coordinates `y` is the dense
    layer of the whole arrays at the array index `i` with row `10000 q + (row of y)` and the column of `y`. -/
theorem rows_entry_of_block (x0 : Vec Ideal S10000x128 .f32) (x1 : Vec Ideal S128x128 .f32) (x2 : Vec Ideal S1x128 .f32)
    (X : S100000x128.Idx → EReal) (W : S128x128.Idx → EReal) (B : S1x128.Idx → EReal) (q : Nat)
    (h0 : ∀ (y : S10000x128.Idx) (i : S100000x128.Idx), (i 0).val = 10000 * q + (y 0).val → (i 1).val = (y 1).val → x0 y = X i)
    (h1 : x1 = W) (h2 : x2 = B)
    (v : S10000x128.Idx → EReal)
    (hv : ∀ (r : Fin 10000) (j : Fin 128), v (ix2 r j) = (∑ k : Fin 128, x0 (ix2 r k) * x1 (ix2 k j)) + x2 (ix2 0 j))
    (y : S10000x128.Idx) (i : S100000x128.Idx) (hi0 : (i 0).val = 10000 * q + (y 0).val) (hi1 : (i 1).val = (y 1).val) :
    v y = dense 100000 128 X W B i := by
  subst h1 h2
  obtain ⟨r, j, rfl⟩ : ∃ (r : Fin 10000) (j : Fin 128), y = ix2 r j := ⟨y 0, y 1, eq_ix2 y⟩
  obtain ⟨r', j', rfl⟩ : ∃ (r' : Fin 100000) (j' : Fin 128), i = ix2 r' j' := ⟨i 0, i 1, eq_ix2 i⟩
  obtain rfl : j' = j := Fin.ext hi1
  rw [hv r j', dense_apply]
  refine congrArg (· + x2 (ix2 0 j')) (Finset.sum_congr rfl fun k _ => ?_)
  rw [h0 (ix2 r k) (ix2 r' k) hi0 rfl]

end Cert.KernelIdeal.Dense

end
-- ==== Proof.DenseRegion0.lean ====
import proofs.«154548_j48369921688195_1_alg».proof.Proof.Gen.KernelIdeal.Frame
import proofs.«154548_j48369921688195_1_alg».proof.Proof.DenseBody
import Idealize.ShloMosaic.Lib.Pipeline.Value
import Idealize.ShloMosaic.Lib.ValueIdx

/-!
# The first dense layer: from row blocks to the whole result

The layer runs over ten grid points. At point `t` it reads rows `10000 t … 10000 t + 9999` of the activations,
the whole weight matrix and the whole bias row, and writes rows `10000 t … 10000 t + 9999` of the result. Each
entry of a written block is the dense layer's formula of the block's reads (the body's entry, proved in
`DenseBody`), and a block's entry at block coordinates `(y, k)` is the array's entry at
`(10000 t + y, k)`; so what every point writes is the corresponding block of ONE function of the three whole
arrays. The ten blocks cover every row (row `r` lies in the block of point `r / 10000`), hence the result array
after the run is that function: `result (r, j) = ∑ k, x (r, k) * w (k, j) + b (0, j)`.

The three input arrays are named by variables `X`, `W`, `B` with the equations saying they are what the region
finds, so that the statement can be used with whatever is known about those contents.
-/

noncomputable section
open scoped BigOperators
namespace Cert.KernelIdeal.Dense
open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A block read or written whole starts at offset zero on both axes. -/
theorem layer0_zero_offsets : (![0, 0] : Fin 2 → Nat) = fun _ => 0 := funext fun a => by fin_cases a <;> rfl

/-- The index maps of the first layer's four windows, at every grid point: the activations and the result move by
    row block with the point, the weights and the bias stay at block (0, 0). -/
theorem layer0_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t` is rows `10000 t … 10000 t + 9999` of the activations. -/
theorem layer0_x_block (c : Dev nD) (t : Fin cfg0.N) (X : S100000x128.Idx → EReal) (hX : V c (Pipeline.arrRef spec0 0) = X)
    (y : S10000x128.Idx) (i : S100000x128.Idx)
    (h0 : (i 0).val = 10000 * t.val + (y 0).val) (h1 : (i 1).val = (y 1).val) :
    (iblk0 V c 0 t : Vec Ideal S10000x128 .f32) y = X i := by
  subst hX
  obtain ⟨e0, e1, -⟩ := layer0_blocks t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem layer0_w_block (c : Dev nD) (t : Fin cfg0.N) (W : S128x128.Idx → EReal) (hW : V c (Pipeline.arrRef spec0 1) = W) :
    (iblk0 V c 1 t : Vec Ideal S128x128 .f32) = W := by
  subst hW
  obtain ⟨-, -, e0, e1, -⟩ := layer0_blocks t
  funext y
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias' block at every point is the whole bias row. -/
theorem layer0_b_block (c : Dev nD) (t : Fin cfg0.N) (B : S1x128.Idx → EReal) (hB : V c (Pipeline.arrRef spec0 2) = B) :
    (iblk0 V c 2 t : Vec Ideal S1x128 .f32) = B := by
  subst hB
  obtain ⟨-, -, -, -, e0, e1, -⟩ := layer0_blocks t
  funext y
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point `t` writes back is block `t` of the dense layer of the whole arrays. -/
theorem layer0_flushed (c : Dev nD) (t : Fin cfg0.N)
    (X : S100000x128.Idx → EReal) (W : S128x128.Idx → EReal) (B : S1x128.Idx → EReal)
    (hX : V c (Pipeline.arrRef spec0 0) = X) (hW : V c (Pipeline.arrRef spec0 1) = W) (hB : V c (Pipeline.arrRef spec0 2) = B) :
    (dat0 (F := Ideal) V c).flushed 3 t = ((cfg0.win 3).blk t).view.read (Elt Ideal) (dense 100000 128 X W B) := by
  show (cfg0.win 3).cut (grid0.coords t) ((dat0 V c).after 3 t) = _
  rw [after0_3]
  unfold out0_3
  rw [View.canon_unit_zero layer0_zero_offsets]
  simp only [View.ld_unit_zero (S := S10000x128) layer0_zero_offsets, View.ld_unit_zero (S := S128x128) layer0_zero_offsets, View.ld_unit_zero (S := S1x128) layer0_zero_offsets]
  obtain ⟨-, -, -, -, -, -, e0, e1⟩ := layer0_blocks t
  funext y
  show k0_pay1 (iblk0 V c 0 t) (iblk0 V c 1 t) (iblk0 V c 2 t) y = dense 100000 128 X W B (((cfg0.win 3).blk t).view.emb y)
  refine rows_entry_of_block (iblk0 V c 0 t) (iblk0 V c 1 t) (iblk0 V c 2 t) X W B t.val
    (fun y' i h0 h1 => layer0_x_block V c t X hX y' i h0 h1) (layer0_w_block V c t W hW) (layer0_b_block V c t B hB)
    (k0_pay1 (iblk0 V c 0 t) (iblk0 V c 1 t) (iblk0 V c 2 t))
    (fun r j => pay0_apply (iblk0 V c 0 t) (iblk0 V c 1 t) (iblk0 V c 2 t) r j)
    y (((cfg0.win 3).blk t).view.emb y) ?_ ?_
  · show win0_3.index t (0 : Fin 2) * 10000 + 1 * (y 0).val = 10000 * t.val + (y 0).val
    rw [e0]; omega
  · show win0_3.index t (1 : Fin 2) * 128 + 1 * (y 1).val = (y 1).val
    rw [e1]; omega

/-- An index of the result array is in point `t`'s block iff each coordinate is in the block's range on its axis. -/
theorem layer0_mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v29).slice (win0_3.rect t)).set ↔ _
  rw [View.set_slice_whole, Rect.mem_set_unit]
  exact Iff.rfl

/-- Every row of the result is in some point's block: row `r` in the block of point `r / 10000`. -/
theorem layer0_cover (i : S100000x128.Idx) :
    ∃ t : Fin cfg0.N, (cfg0.win 3).flush t = true ∧ i ∈ ((cfg0.win 3).blk t).view.set := by
  have hN : cfg0.N = 10 := N_0
  have hi0 : (i 0).val < 100000 := idx2_lt0 i
  have hi1 : (i 1).val < 128 := idx2_lt1 i
  let t : Fin cfg0.N := ⟨(i 0).val / 10000, by omega⟩
  have ht : t.val = (i 0).val / 10000 := rfl
  obtain ⟨-, -, -, -, -, -, e0, e1⟩ := layer0_blocks t
  refine ⟨t, flush0_3 t, ?_⟩
  rw [layer0_mem_block]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 128 ≤ (i 1).val ∧ (i 1).val < win0_3.index t (1 : Fin 2) * 128 + 128; rw [e1]; omega

/-- THE FIRST LAYER'S RESULT ARRAY after its pipeline has run is the dense layer of the three arrays the region found. -/
theorem region0_array_eq (c : Dev nD)
    (X : S100000x128.Idx → EReal) (W : S128x128.Idx → EReal) (B : S1x128.Idx → EReal)
    (hX : V c (Pipeline.arrRef spec0 0) = X) (hW : V c (Pipeline.arrRef spec0 1) = W) (hB : V c (Pipeline.arrRef spec0 2) = B) :
    (dat0 (F := Ideal) V c).arrAt 3 cfg0.N = dense 100000 128 X W B :=
  (dat0 (F := Ideal) V c).arrAt_eq_of_cover 3 (dense 100000 128 X W B) (fun t _ => layer0_flushed V c t X W B hX hW hB) layer0_cover

/-- The same, entry by entry. -/
theorem region0_array (c : Dev nD)
    (X : S100000x128.Idx → EReal) (W : S128x128.Idx → EReal) (B : S1x128.Idx → EReal)
    (hX : V c (Pipeline.arrRef spec0 0) = X) (hW : V c (Pipeline.arrRef spec0 1) = W) (hB : V c (Pipeline.arrRef spec0 2) = B)
    (r : Fin 100000) (j : Fin 128) :
    ((dat0 (F := Ideal) V c).arrAt 3 cfg0.N : S100000x128.Idx → EReal) (ix2 r j)
      = (∑ k : Fin 128, X (ix2 r k) * W (ix2 k j)) + B (ix2 0 j) := by
  rw [region0_array_eq V c X W B hX hW hB, dense_apply]

end Cert.KernelIdeal.Dense
end
-- ==== Proof.DenseRegion1.lean ====
import proofs.«154548_j48369921688195_1_alg».proof.Proof.Gen.KernelIdeal.Frame
import proofs.«154548_j48369921688195_1_alg».proof.Proof.DenseBody
import Idealize.ShloMosaic.Lib.Pipeline.Value
import Idealize.ShloMosaic.Lib.ValueIdx

/-!
# The second dense layer: from row blocks to the whole result

The layer runs over ten grid points. At point `t` it reads rows `10000 t … 10000 t + 9999` of the activations,
the whole weight matrix and the whole bias row, and writes rows `10000 t … 10000 t + 9999` of the result. Each
entry of a written block is the dense layer's formula of the block's reads (the body's entry, proved in
`DenseBody`), and a block's entry at block coordinates `(y, k)` is the array's entry at
`(10000 t + y, k)`; so what every point writes is the corresponding block of ONE function of the three whole
arrays. The ten blocks cover every row (row `r` lies in the block of point `r / 10000`), hence the result array
after the run is that function: `result (r, j) = ∑ k, x (r, k) * w (k, j) + b (0, j)`.

The three input arrays are named by variables `X`, `W`, `B` with the equations saying they are what the region
finds, so that the statement can be used with whatever is known about those contents.
-/

noncomputable section
open scoped BigOperators
namespace Cert.KernelIdeal.Dense
open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A block read or written whole starts at offset zero on both axes. -/
theorem layer1_zero_offsets : (![0, 0] : Fin 2 → Nat) = fun _ => 0 := funext fun a => by fin_cases a <;> rfl

/-- The index maps of the second layer's four windows, at every grid point: the activations and the result move by
    row block with the point, the weights and the bias stay at block (0, 0). -/
theorem layer1_blocks : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activations' block at point `t` is rows `10000 t … 10000 t + 9999` of the activations. -/
theorem layer1_x_block (c : Dev nD) (t : Fin cfg1.N) (X : S100000x128.Idx → EReal) (hX : V c (Pipeline.arrRef spec1 0) = X)
    (y : S10000x128.Idx) (i : S100000x128.Idx)
    (h0 : (i 0).val = 10000 * t.val + (y 0).val) (h1 : (i 1).val = (y 1).val) :
    (iblk1 V c 0 t : Vec Ideal S10000x128 .f32) y = X i := by
  subst hX
  obtain ⟨e0, e1, -⟩ := layer1_blocks t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The weights' block at every point is the whole weight matrix. -/
theorem layer1_w_block (c : Dev nD) (t : Fin cfg1.N) (W : S128x128.Idx → EReal) (hW : V c (Pipeline.arrRef spec1 1) = W) :
    (iblk1 V c 1 t : Vec Ideal S128x128 .f32) = W := by
  subst hW
  obtain ⟨-, -, e0, e1, -⟩ := layer1_blocks t
  funext y
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias' block at every point is the whole bias row. -/
theorem layer1_b_block (c : Dev nD) (t : Fin cfg1.N) (B : S1x128.Idx → EReal) (hB : V c (Pipeline.arrRef spec1 2) = B) :
    (iblk1 V c 2 t : Vec Ideal S1x128 .f32) = B := by
  subst hB
  obtain ⟨-, -, -, -, e0, e1, -⟩ := layer1_blocks t
  funext y
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point `t` writes back is block `t` of the dense layer of the whole arrays. -/
theorem layer1_flushed (c : Dev nD) (t : Fin cfg1.N)
    (X : S100000x128.Idx → EReal) (W : S128x128.Idx → EReal) (B : S1x128.Idx → EReal)
    (hX : V c (Pipeline.arrRef spec1 0) = X) (hW : V c (Pipeline.arrRef spec1 1) = W) (hB : V c (Pipeline.arrRef spec1 2) = B) :
    (dat1 (F := Ideal) V c).flushed 3 t = ((cfg1.win 3).blk t).view.read (Elt Ideal) (dense 100000 128 X W B) := by
  show (cfg1.win 3).cut (grid1.coords t) ((dat1 V c).after 3 t) = _
  rw [after1_3]
  unfold out1_3
  rw [View.canon_unit_zero layer1_zero_offsets]
  simp only [View.ld_unit_zero (S := S10000x128) layer1_zero_offsets, View.ld_unit_zero (S := S128x128) layer1_zero_offsets, View.ld_unit_zero (S := S1x128) layer1_zero_offsets]
  obtain ⟨-, -, -, -, -, -, e0, e1⟩ := layer1_blocks t
  funext y
  show k1_pay1 (iblk1 V c 0 t) (iblk1 V c 1 t) (iblk1 V c 2 t) y = dense 100000 128 X W B (((cfg1.win 3).blk t).view.emb y)
  refine rows_entry_of_block (iblk1 V c 0 t) (iblk1 V c 1 t) (iblk1 V c 2 t) X W B t.val
    (fun y' i h0 h1 => layer1_x_block V c t X hX y' i h0 h1) (layer1_w_block V c t W hW) (layer1_b_block V c t B hB)
    (k1_pay1 (iblk1 V c 0 t) (iblk1 V c 1 t) (iblk1 V c 2 t))
    (fun r j => pay1_apply (iblk1 V c 0 t) (iblk1 V c 1 t) (iblk1 V c 2 t) r j)
    y (((cfg1.win 3).blk t).view.emb y) ?_ ?_
  · show win1_3.index t (0 : Fin 2) * 10000 + 1 * (y 0).val = 10000 * t.val + (y 0).val
    rw [e0]; omega
  · show win1_3.index t (1 : Fin 2) * 128 + 1 * (y 1).val = (y 1).val
    rw [e1]; omega

/-- An index of the result array is in point `t`'s block iff each coordinate is in the block's range on its axis. -/
theorem layer1_mem_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v48).slice (win1_3.rect t)).set ↔ _
  rw [View.set_slice_whole, Rect.mem_set_unit]
  exact Iff.rfl

/-- Every row of the result is in some point's block: row `r` in the block of point `r / 10000`. -/
theorem layer1_cover (i : S100000x128.Idx) :
    ∃ t : Fin cfg1.N, (cfg1.win 3).flush t = true ∧ i ∈ ((cfg1.win 3).blk t).view.set := by
  have hN : cfg1.N = 10 := N_1
  have hi0 : (i 0).val < 100000 := idx2_lt0 i
  have hi1 : (i 1).val < 128 := idx2_lt1 i
  let t : Fin cfg1.N := ⟨(i 0).val / 10000, by omega⟩
  have ht : t.val = (i 0).val / 10000 := rfl
  obtain ⟨-, -, -, -, -, -, e0, e1⟩ := layer1_blocks t
  refine ⟨t, flush1_3 t, ?_⟩
  rw [layer1_mem_block]
  intro a
  match a with
  | ⟨0, _⟩ => show win1_3.index t (0 : Fin 2) * 10000 ≤ (i 0).val ∧ (i 0).val < win1_3.index t (0 : Fin 2) * 10000 + 10000; rw [e0, ht]; omega
  | ⟨1, _⟩ => show win1_3.index t (1 : Fin 2) * 128 ≤ (i 1).val ∧ (i 1).val < win1_3.index t (1 : Fin 2) * 128 + 128; rw [e1]; omega

/-- THE SECOND LAYER'S RESULT ARRAY after its pipeline has run is the dense layer of the three arrays the region found. -/
theorem region1_array_eq (c : Dev nD)
    (X : S100000x128.Idx → EReal) (W : S128x128.Idx → EReal) (B : S1x128.Idx → EReal)
    (hX : V c (Pipeline.arrRef spec1 0) = X) (hW : V c (Pipeline.arrRef spec1 1) = W) (hB : V c (Pipeline.arrRef spec1 2) = B) :
    (dat1 (F := Ideal) V c).arrAt 3 cfg1.N = dense 100000 128 X W B :=
  (dat1 (F := Ideal) V c).arrAt_eq_of_cover 3 (dense 100000 128 X W B) (fun t _ => layer1_flushed V c t X W B hX hW hB) layer1_cover

/-- The same, entry by entry. -/
theorem region1_array (c : Dev nD)
    (X : S100000x128.Idx → EReal) (W : S128x128.Idx → EReal) (B : S1x128.Idx → EReal)
    (hX : V c (Pipeline.arrRef spec1 0) = X) (hW : V c (Pipeline.arrRef spec1 1) = W) (hB : V c (Pipeline.arrRef spec1 2) = B)
    (r : Fin 100000) (j : Fin 128) :
    ((dat1 (F := Ideal) V c).arrAt 3 cfg1.N : S100000x128.Idx → EReal) (ix2 r j)
      = (∑ k : Fin 128, X (ix2 r k) * W (ix2 k j)) + B (ix2 0 j) := by
  rw [region1_array_eq V c X W B hX hW hB, dense_apply]

end Cert.KernelIdeal.Dense
end
-- ==== Proof.DenseRegion2.lean ====
import proofs.«154548_j48369921688195_1_alg».proof.Proof.Gen.KernelIdeal.Frame
import proofs.«154548_j48369921688195_1_alg».proof.Proof.DenseBody
import Idealize.ShloMosaic.Lib.Pipeline.Value
import Idealize.ShloMosaic.Lib.ValueIdx

/-!
# The third dense layer: from row blocks to the whole result

The layer runs over ten grid points. At point `t` it reads rows `10000 t … 10000 t + 9999` of the activations,
the whole weight matrix and the whole bias row, and writes rows `10000 t … 10000 t + 9999` of the result. Each
entry of a written block is the dense layer's formula of the block's reads (the body's entry, proved in
`DenseBody`), and a block's entry at block coordinates `(y, k)` is the array's entry at
`(10000 t + y, k)`; so what every point writes is the corresponding block of ONE function of the three whole
arrays. The ten blocks cover every row (row `r` lies in the block of point `r / 10000`), hence the result array
after the run is that function: `result (r, j) = ∑ k, x (r, k) * w (k, j) + b (0, j)`.

The three input arrays are named by variables `X`, `W`, `B` with the equations saying they are what the region
finds, so that the statement can be used with whatever is known about those contents.
-/

noncomputable section
open scoped BigOperators
namespace Cert.KernelIdeal.Dense
open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A block read or written whole starts at offset zero on both axes. -/
theorem layer2_zero_offsets : (![0, 0] : Fin 2 → Nat) = fun _ => 0 := funext fun a => by fin_cases a <;> rfl

/-- The index maps of the third layer's four windows, at every grid point: the activations and the result move by
    row block with the point, the weights and the bias stay at block (0, 0). -/
theorem layer2_blocks : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point `t` is rows `10000 t … 10000 t + 9999` of the activations. -/
theorem layer2_x_block (c : Dev nD) (t : Fin cfg2.N) (X : S100000x128.Idx → EReal) (hX : V c (Pipeline.arrRef spec2 0) = X)
    (y : S10000x128.Idx) (i : S100000x128.Idx)
    (h0 : (i 0).val = 10000 * t.val + (y 0).val) (h1 : (i 1).val = (y 1).val) :
    (iblk2 V c 0 t : Vec Ideal S10000x128 .f32) y = X i := by
  subst hX
  obtain ⟨e0, e1, -⟩ := layer2_blocks t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

/-- The weights' block at every point is the whole weight matrix. -/
theorem layer2_w_block (c : Dev nD) (t : Fin cfg2.N) (W : S128x128.Idx → EReal) (hW : V c (Pipeline.arrRef spec2 1) = W) :
    (iblk2 V c 1 t : Vec Ideal S128x128 .f32) = W := by
  subst hW
  obtain ⟨-, -, e0, e1, -⟩ := layer2_blocks t
  funext y
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias' block at every point is the whole bias row. -/
theorem layer2_b_block (c : Dev nD) (t : Fin cfg2.N) (B : S1x128.Idx → EReal) (hB : V c (Pipeline.arrRef spec2 2) = B) :
    (iblk2 V c 2 t : Vec Ideal S1x128 .f32) = B := by
  subst hB
  obtain ⟨-, -, -, -, e0, e1, -⟩ := layer2_blocks t
  funext y
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- What point `t` writes back is block `t` of the dense layer of the whole arrays. -/
theorem layer2_flushed (c : Dev nD) (t : Fin cfg2.N)
    (X : S100000x128.Idx → EReal) (W : S128x128.Idx → EReal) (B : S1x128.Idx → EReal)
    (hX : V c (Pipeline.arrRef spec2 0) = X) (hW : V c (Pipeline.arrRef spec2 1) = W) (hB : V c (Pipeline.arrRef spec2 2) = B) :
    (dat2 (F := Ideal) V c).flushed 3 t = ((cfg2.win 3).blk t).view.read (Elt Ideal) (dense 100000 128 X W B) := by
  show (cfg2.win 3).cut (grid2.coords t) ((dat2 V c).after 3 t) = _
  rw [after2_3]
  unfold out2_3
  rw [View.canon_unit_zero layer2_zero_offsets]
  simp only [View.ld_unit_zero (S := S10000x128) layer2_zero_offsets, View.ld_unit_zero (S := S128x128) layer2_zero_offsets, View.ld_unit_zero (S := S1x128) layer2_zero_offsets]
  obtain ⟨-, -, -, -, -, -, e0, e1⟩ := layer2_blocks t
  funext y
  show k2_pay1 (iblk2 V c 0 t) (iblk2 V c 1 t) (iblk2 V c 2 t) y = dense 100000 128 X W B (((cfg2.win 3).blk t).view.emb y)
  refine rows_entry_of_block (iblk2 V c 0 t) (iblk2 V c 1 t) (iblk2 V c 2 t) X W B t.val
    (fun y' i h0 h1 => layer2_x_block V c t X hX y' i h0 h1) (layer2_w_block V c t W hW) (layer2_b_block V c t B hB)
    (k2_pay1 (iblk2 V c 0 t) (iblk2 V c 1 t) (iblk2 V c 2 t))
    (fun r j => pay2_apply (iblk2 V c 0 t) (iblk2 V c 1 t) (iblk2 V c 2 t) r j)
    y (((cfg2.win 3).blk t).view.emb y) ?_ ?_
  · show win2_3.index t (0 : Fin 2) * 10000 + 1 * (y 0).val = 10000 * t.val + (y 0).val
    rw [e0]; omega
  · show win2_3.index t (1 : Fin 2) * 128 + 1 * (y 1).val = (y 1).val
    rw [e1]; omega

/-- An index of the result array is in point `t`'s block iff each coordinate is in the block's range on its axis. -/
theorem layer2_mem_block (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v67).slice (win2_3.rect t)).set ↔ _
  rw [View.set_slice_whole, Rect.mem_set_unit]
  exact Iff.rfl

/-- Every row of the result is in some point's block: row `r` in the block of point `r / 10000`. -/
theorem layer2_cover (i : S100000x128.Idx) :
    ∃ t : Fin cfg2.N, (cfg2.win 3).flush t = true ∧ i ∈ ((cfg2.win 3).blk t).view.set := by
  have hN : cfg2.N = 10 := N_2
  have hi0 : (i 0).val < 100000 := idx2_lt0 i
  have hi1 : (i 1).val < 128 := idx2_lt1 i
  let t : Fin cfg2.N := ⟨(i 0).val / 10000, by omega⟩
  have ht : t.val = (i 0).val / 10000 := rfl
  obtain ⟨-, -, -, -, -, -, e0, e1⟩ := layer2_blocks t
  refine ⟨t, flush2_3 t, ?_⟩
  rw [layer2_mem_block]
  intro a
  match a with
  | ⟨0, _⟩ => show win2_3.index t (0 : Fin 2) * 10000 ≤ (i 0).val ∧ (i 0).val < win2_3.index t (0 : Fin 2) * 10000 + 10000; rw [e0, ht]; omega
  | ⟨1, _⟩ => show win2_3.index t (1 : Fin 2) * 128 ≤ (i 1).val ∧ (i 1).val < win2_3.index t (1 : Fin 2) * 128 + 128; rw [e1]; omega

/-- THE THIRD LAYER'S RESULT ARRAY after its pipeline has run is the dense layer of the three arrays the region found. -/
theorem region2_array_eq (c : Dev nD)
    (X : S100000x128.Idx → EReal) (W : S128x128.Idx → EReal) (B : S1x128.Idx → EReal)
    (hX : V c (Pipeline.arrRef spec2 0) = X) (hW : V c (Pipeline.arrRef spec2 1) = W) (hB : V c (Pipeline.arrRef spec2 2) = B) :
    (dat2 (F := Ideal) V c).arrAt 3 cfg2.N = dense 100000 128 X W B :=
  (dat2 (F := Ideal) V c).arrAt_eq_of_cover 3 (dense 100000 128 X W B) (fun t _ => layer2_flushed V c t X W B hX hW hB) layer2_cover

/-- The same, entry by entry. -/
theorem region2_array (c : Dev nD)
    (X : S100000x128.Idx → EReal) (W : S128x128.Idx → EReal) (B : S1x128.Idx → EReal)
    (hX : V c (Pipeline.arrRef spec2 0) = X) (hW : V c (Pipeline.arrRef spec2 1) = W) (hB : V c (Pipeline.arrRef spec2 2) = B)
    (r : Fin 100000) (j : Fin 128) :
    ((dat2 (F := Ideal) V c).arrAt 3 cfg2.N : S100000x128.Idx → EReal) (ix2 r j)
      = (∑ k : Fin 128, X (ix2 r k) * W (ix2 k j)) + B (ix2 0 j) := by
  rw [region2_array_eq V c X W B hX hW hB, dense_apply]

end Cert.KernelIdeal.Dense
end
-- ==== Proof.DenseRegion3.lean ====
import proofs.«154548_j48369921688195_1_alg».proof.Proof.Gen.KernelIdeal.Frame
import proofs.«154548_j48369921688195_1_alg».proof.Proof.DenseBody
import Idealize.ShloMosaic.Lib.Pipeline.Value
import Idealize.ShloMosaic.Lib.ValueIdx

/-!
# The last dense layer: one block that is the whole result

The last layer has a single grid point. Its four blocks are the whole arrays: the 256 pooled rows by 128
features, the 128 by 2 weights, the 1 by 2 bias and the 256 by 2 result, each at block (0, 0). So what the one
point writes is the body's formula of the whole arrays, and it covers the result array:
`result (r, j) = ∑ k, x (r, k) * w (k, j) + b (0, j)`.

The three input arrays are named by variables `X`, `W`, `B` with the equations saying they are what the region
finds, so that the statement can be used with whatever is known about those contents.
-/

noncomputable section
open scoped BigOperators
namespace Cert.KernelIdeal.Dense
open Idealize.ShloMosaic Idealize.ShloMosaic.TcCoe Idealize.SL.Sem Idealize.ShloMosaic.ValueIdx Cert.KernelIdeal Cert.KernelIdeal.Gen
open Idealize.ShloMosaic.Pipeline (Dat)

/-- When the three blocks are the three whole arrays, the body's formula is the dense layer of the whole arrays. -/
theorem pooled_eq_dense (x0 : Vec Ideal S256x128 .f32) (x1 : Vec Ideal S128x2 .f32) (x2 : Vec Ideal S1x2 .f32)
    (X : S256x128.Idx → EReal) (W : S128x2.Idx → EReal) (B : S1x2.Idx → EReal)
    (h0 : x0 = X) (h1 : x1 = W) (h2 : x2 = B)
    (v : S256x2.Idx → EReal)
    (hv : ∀ (r : Fin 256) (j : Fin 2), v (ix2 r j) = (∑ k : Fin 128, x0 (ix2 r k) * x1 (ix2 k j)) + x2 (ix2 0 j)) :
    v = dense 256 2 X W B := by
  subst h0 h1 h2
  funext y
  obtain ⟨r, j, rfl⟩ : ∃ (r : Fin 256) (j : Fin 2), y = ix2 r j := ⟨y 0, y 1, eq_ix2 y⟩
  rw [hv r j, dense_apply]

variable (V : (c : Dev nD) → (b : Ref sig .tc) → Buf (Elt Ideal) ((c : Thread nD τ).loc b))

/-- A block read or written whole starts at offset zero on both axes. -/
theorem layer3_zero_offsets : (![0, 0] : Fin 2 → Nat) = fun _ => 0 := funext fun a => by fin_cases a <;> rfl

/-- The index maps of the last layer's four windows at its one grid point: every block is block (0, 0). -/
theorem layer3_blocks : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The pooled rows' block is the whole array of pooled rows. -/
theorem layer3_x_block (c : Dev nD) (t : Fin cfg3.N) (X : S256x128.Idx → EReal) (hX : V c (Pipeline.arrRef spec3 0) = X) :
    (iblk3 V c 0 t : Vec Ideal S256x128 .f32) = X := by
  subst hX
  obtain ⟨e0, e1, -⟩ := layer3_blocks t
  funext y
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 256 + 1 * (y 0).val = (y 0).val; rw [e0]; omega
  | ⟨1, _⟩ => show win3_0.index t (1 : Fin 2) * 128 + 1 * (y 1).val = (y 1).val; rw [e1]; omega

/-- The weights' block is the whole weight matrix. -/
theorem layer3_w_block (c : Dev nD) (t : Fin cfg3.N) (W : S128x2.Idx → EReal) (hW : V c (Pipeline.arrRef spec3 1) = W) :
    (iblk3 V c 1 t : Vec Ideal S128x2 .f32) = W := by
  subst hW
  obtain ⟨-, -, e0, e1, -⟩ := layer3_blocks t
  funext y
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 128 + 1 * (y 0).val = (y 0).val; rw [e0]; omega
  | ⟨1, _⟩ => show win3_1.index t (1 : Fin 2) * 2 + 1 * (y 1).val = (y 1).val; rw [e1]; omega

/-- The bias' block is the whole bias row. -/
theorem layer3_b_block (c : Dev nD) (t : Fin cfg3.N) (B : S1x2.Idx → EReal) (hB : V c (Pipeline.arrRef spec3 2) = B) :
    (iblk3 V c 2 t : Vec Ideal S1x2 .f32) = B := by
  subst hB
  obtain ⟨-, -, -, -, e0, e1, -⟩ := layer3_blocks t
  funext y
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 2 + 1 * (y 1).val = (y 1).val; rw [e1]; omega

/-- What the one point writes back is the (whole-array) block of the dense layer of the whole arrays. -/
theorem layer3_flushed (c : Dev nD) (t : Fin cfg3.N)
    (X : S256x128.Idx → EReal) (W : S128x2.Idx → EReal) (B : S1x2.Idx → EReal)
    (hX : V c (Pipeline.arrRef spec3 0) = X) (hW : V c (Pipeline.arrRef spec3 1) = W) (hB : V c (Pipeline.arrRef spec3 2) = B) :
    (dat3 (F := Ideal) V c).flushed 3 t = ((cfg3.win 3).blk t).view.read (Elt Ideal) (dense 256 2 X W B) := by
  show (cfg3.win 3).cut (grid3.coords t) ((dat3 V c).after 3 t) = _
  rw [after3_3]
  unfold out3_3
  rw [View.canon_unit_zero layer3_zero_offsets]
  simp only [View.ld_unit_zero (S := S256x128) layer3_zero_offsets, View.ld_unit_zero (S := S128x2) layer3_zero_offsets, View.ld_unit_zero (S := S1x2) layer3_zero_offsets]
  obtain ⟨-, -, -, -, -, -, e0, e1⟩ := layer3_blocks t
  funext y
  show k3_pay1 (iblk3 V c 0 t) (iblk3 V c 1 t) (iblk3 V c 2 t) y = dense 256 2 X W B (((cfg3.win 3).blk t).view.emb y)
  have hy : ((cfg3.win 3).blk t).view.emb y = y := funext fun a => Fin.ext (by
    match a with
    | ⟨0, _⟩ => show win3_3.index t (0 : Fin 2) * 256 + 1 * (y 0).val = (y 0).val; rw [e0]; omega
    | ⟨1, _⟩ => show win3_3.index t (1 : Fin 2) * 2 + 1 * (y 1).val = (y 1).val; rw [e1]; omega)
  rw [hy]
  exact congrFun (pooled_eq_dense (iblk3 V c 0 t) (iblk3 V c 1 t) (iblk3 V c 2 t) X W B
    (layer3_x_block V c t X hX) (layer3_w_block V c t W hW) (layer3_b_block V c t B hB)
    (k3_pay1 (iblk3 V c 0 t) (iblk3 V c 1 t) (iblk3 V c 2 t))
    (fun r j => pay3_apply (iblk3 V c 0 t) (iblk3 V c 1 t) (iblk3 V c 2 t) r j)) y

/-- An index of the result array is in the point's block iff each coordinate is in the block's range on its axis. -/
theorem layer3_mem_block (t : Fin cfg3.N) (i : S256x2.Idx) :
    i ∈ ((cfg3.win 3).blk t).view.set ↔ ∀ a : Fin 2, win3_3.index t a * S256x2.size a ≤ (i a).val ∧ (i a).val < win3_3.index t a * S256x2.size a + S256x2.size a := by
  show i ∈ ((View.whole main_v97).slice (win3_3.rect t)).set ↔ _
  rw [View.set_slice_whole, Rect.mem_set_unit]
  exact Iff.rfl

/-- Every entry of the result is in the one point's block. -/
theorem layer3_cover (i : S256x2.Idx) :
    ∃ t : Fin cfg3.N, (cfg3.win 3).flush t = true ∧ i ∈ ((cfg3.win 3).blk t).view.set := by
  have hN : cfg3.N = 1 := N_3
  have hi0 : (i 0).val < 256 := idx2_lt0 i
  have hi1 : (i 1).val < 2 := idx2_lt1 i
  let t : Fin cfg3.N := ⟨0, by omega⟩
  obtain ⟨-, -, -, -, -, -, e0, e1⟩ := layer3_blocks t
  refine ⟨t, flush3_3 t, ?_⟩
  rw [layer3_mem_block]
  intro a
  match a with
  | ⟨0, _⟩ => show win3_3.index t (0 : Fin 2) * 256 ≤ (i 0).val ∧ (i 0).val < win3_3.index t (0 : Fin 2) * 256 + 256; rw [e0]; omega
  | ⟨1, _⟩ => show win3_3.index t (1 : Fin 2) * 2 ≤ (i 1).val ∧ (i 1).val < win3_3.index t (1 : Fin 2) * 2 + 2; rw [e1]; omega

/-- THE LAST LAYER'S RESULT ARRAY after its pipeline has run is the dense layer of the three arrays the region found. -/
theorem region3_array_eq (c : Dev nD)
    (X : S256x128.Idx → EReal) (W : S128x2.Idx → EReal) (B : S1x2.Idx → EReal)
    (hX : V c (Pipeline.arrRef spec3 0) = X) (hW : V c (Pipeline.arrRef spec3 1) = W) (hB : V c (Pipeline.arrRef spec3 2) = B) :
    (dat3 (F := Ideal) V c).arrAt 3 cfg3.N = dense 256 2 X W B :=
  (dat3 (F := Ideal) V c).arrAt_eq_of_cover 3 (dense 256 2 X W B) (fun t _ => layer3_flushed V c t X W B hX hW hB) layer3_cover

/-- The same, entry by entry. -/
theorem region3_array (c : Dev nD)
    (X : S256x128.Idx → EReal) (W : S128x2.Idx → EReal) (B : S1x2.Idx → EReal)
    (hX : V c (Pipeline.arrRef spec3 0) = X) (hW : V c (Pipeline.arrRef spec3 1) = W) (hB : V c (Pipeline.arrRef spec3 2) = B)
    (r : Fin 256) (j : Fin 2) :
    ((dat3 (F := Ideal) V c).arrAt 3 cfg3.N : S256x2.Idx → EReal) (ix2 r j)
      = (∑ k : Fin 128, X (ix2 r k) * W (ix2 k j)) + B (ix2 0 j) := by
  rw [region3_array_eq V c X W B hX hW hB, dense_apply]

end Cert.KernelIdeal.Dense
end
-- ==== Proof.KernelValue.lean ====
/-
  The idealized kernel program's returned array is the reference's result, as a function of the arguments.

  The run's boundary contents are followed from the launch to the return.  A host stretch is read by the
  stretch lemmas (its outputs are the reference's next stages when its inputs are the reference's stages); a
  launch replaces its output array by the dense layer of its three input arrays, which entry by entry is the
  reference's matrix product (plus, in the head, the bias), and keeps every other buffer.  Layer by layer:
  the first launch leaves the reference's `x · W1`; the stretch after it the first hidden features; the second
  launch their product with `W2`; and so on to the pooled features and the head.
-/
import proofs.«154548_j48369921688195_1_alg».proof.Proof.Gen.KernelIdeal.Frame
import proofs.«154548_j48369921688195_1_alg».proof.Proof.DenseIsDot
import proofs.«154548_j48369921688195_1_alg».proof.Proof.DenseRegion0
import proofs.«154548_j48369921688195_1_alg».proof.Proof.DenseRegion1
import proofs.«154548_j48369921688195_1_alg».proof.Proof.DenseRegion2
import proofs.«154548_j48369921688195_1_alg».proof.Proof.DenseRegion3

noncomputable section

namespace Cert.KernelIdeal.Whole

open Idealize.ShloMosaic Idealize.ShloMosaic.TcCoe Idealize.ShloMosaic.StableHlo Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-! ## At the first launch's entry -/

theorem w1_v3 : W1 m ρ c (Proc.devRef .tc main_v3) = val_main_v3 (F := Ideal) (m ((c.tc : Thread nD τ).loc main_arg1)) := s0_v3 (W0 m ρ c) _ rfl
theorem w1_v6 : W1 m ρ c (Proc.devRef .tc main_v6) = val_main_v6 (F := Ideal) (m ((c.tc : Thread nD τ).loc main_arg1)) := s0_v6 (W0 m ρ c) _ rfl
theorem w1_v26 : W1 m ρ c (Proc.devRef .tc main_v26) = val_main_v26 (F := Ideal) (m ((c.tc : Thread nD τ).loc main_arg1)) := s0_v26 (W0 m ρ c) _ rfl
theorem w1_v27 : W1 m ρ c (Proc.devRef .tc main_v27) = zeros128 := s0_v27 (W0 m ρ c)
theorem w1_v28 : W1 m ρ c (Proc.devRef .tc main_v28) = shapeCast S1x128 zeros128 shapeCasts_S128_S1x128 := s0_v28 (W0 m ρ c)
theorem w1_arg0 : W1 m ρ c (Proc.devRef .tc main_arg0) = (m ((c.tc : Thread nD τ).loc main_arg0)) := s0_arg0 (W0 m ρ c)
theorem w1_arg2 : W1 m ρ c (Proc.devRef .tc main_arg2) = (m ((c.tc : Thread nD τ).loc main_arg2)) := s0_arg2 (W0 m ρ c)
theorem w1_arg3 : W1 m ρ c (Proc.devRef .tc main_arg3) = (m ((c.tc : Thread nD τ).loc main_arg3)) := s0_arg3 (W0 m ρ c)
theorem w1_arg4 : W1 m ρ c (Proc.devRef .tc main_arg4) = (m ((c.tc : Thread nD τ).loc main_arg4)) := s0_arg4 (W0 m ρ c)
theorem w1_arg5 : W1 m ρ c (Proc.devRef .tc main_arg5) = (m ((c.tc : Thread nD τ).loc main_arg5)) := s0_arg5 (W0 m ρ c)
theorem w1_arg6 : W1 m ρ c (Proc.devRef .tc main_arg6) = (m ((c.tc : Thread nD τ).loc main_arg6)) := s0_arg6 (W0 m ρ c)
theorem w1_arg7 : W1 m ρ c (Proc.devRef .tc main_arg7) = (m ((c.tc : Thread nD τ).loc main_arg7)) := s0_arg7 (W0 m ρ c)
theorem w1_arg8 : W1 m ρ c (Proc.devRef .tc main_arg8) = (m ((c.tc : Thread nD τ).loc main_arg8)) := s0_arg8 (W0 m ρ c)
theorem w1_arg9 : W1 m ρ c (Proc.devRef .tc main_arg9) = (m ((c.tc : Thread nD τ).loc main_arg9)) := s0_arg9 (W0 m ρ c)
theorem w1_arg10 : W1 m ρ c (Proc.devRef .tc main_arg10) = (m ((c.tc : Thread nD τ).loc main_arg10)) := s0_arg10 (W0 m ρ c)

/-! ## The first launch: `x · W1` -/

theorem w2_v29 : W2 m ρ c (Proc.devRef .tc main_v29) = val_main_v27 (F := Ideal) (m ((c.tc : Thread nD τ).loc main_arg0)) (m ((c.tc : Thread nD τ).loc main_arg3)) := by
  refine (W2_arr m ρ c 3).trans ?_
  refine dense_eq_dot (m ((c.tc : Thread nD τ).loc main_arg0)) (m ((c.tc : Thread nD τ).loc main_arg3)) (shapeCast S1x128 zeros128 shapeCasts_S128_S1x128) _ (zero_row zeros128 rfl) (fun r j => ?_)
  exact Cert.KernelIdeal.Dense.region0_array (V1 m ρ) c _ _ _ (w1_arg0 m ρ c) (w1_arg3 m ρ c) (w1_v28 m ρ c) r j
theorem w2_v3 : W2 m ρ c (Proc.devRef .tc main_v3) = val_main_v3 (F := Ideal) (m ((c.tc : Thread nD τ).loc main_arg1)) :=
  (W2_of_ne m ρ c main_v3 (by decide)).trans (w1_v3 m ρ c)
theorem w2_v6 : W2 m ρ c (Proc.devRef .tc main_v6) = val_main_v6 (F := Ideal) (m ((c.tc : Thread nD τ).loc main_arg1)) :=
  (W2_of_ne m ρ c main_v6 (by decide)).trans (w1_v6 m ρ c)
theorem w2_v26 : W2 m ρ c (Proc.devRef .tc main_v26) = val_main_v26 (F := Ideal) (m ((c.tc : Thread nD τ).loc main_arg1)) :=
  (W2_of_ne m ρ c main_v26 (by decide)).trans (w1_v26 m ρ c)
theorem w2_v27 : W2 m ρ c (Proc.devRef .tc main_v27) = zeros128 :=
  (W2_of_ne m ρ c main_v27 (by decide)).trans (w1_v27 m ρ c)
theorem w2_arg2 : W2 m ρ c (Proc.devRef .tc main_arg2) = (m ((c.tc : Thread nD τ).loc main_arg2)) :=
  (W2_of_ne m ρ c main_arg2 (by decide)).trans (w1_arg2 m ρ c)
theorem w2_arg4 : W2 m ρ c (Proc.devRef .tc main_arg4) = (m ((c.tc : Thread nD τ).loc main_arg4)) :=
  (W2_of_ne m ρ c main_arg4 (by decide)).trans (w1_arg4 m ρ c)
theorem w2_arg5 : W2 m ρ c (Proc.devRef .tc main_arg5) = (m ((c.tc : Thread nD τ).loc main_arg5)) :=
  (W2_of_ne m ρ c main_arg5 (by decide)).trans (w1_arg5 m ρ c)
theorem w2_arg6 : W2 m ρ c (Proc.devRef .tc main_arg6) = (m ((c.tc : Thread nD τ).loc main_arg6)) :=
  (W2_of_ne m ρ c main_arg6 (by decide)).trans (w1_arg6 m ρ c)
theorem w2_arg7 : W2 m ρ c (Proc.devRef .tc main_arg7) = (m ((c.tc : Thread nD τ).loc main_arg7)) :=
  (W2_of_ne m ρ c main_arg7 (by decide)).trans (w1_arg7 m ρ c)
theorem w2_arg8 : W2 m ρ c (Proc.devRef .tc main_arg8) = (m ((c.tc : Thread nD τ).loc main_arg8)) :=
  (W2_of_ne m ρ c main_arg8 (by decide)).trans (w1_arg8 m ρ c)
theorem w2_arg9 : W2 m ρ c (Proc.devRef .tc main_arg9) = (m ((c.tc : Thread nD τ).loc main_arg9)) :=
  (W2_of_ne m ρ c main_arg9 (by decide)).trans (w1_arg9 m ρ c)
theorem w2_arg10 : W2 m ρ c (Proc.devRef .tc main_arg10) = (m ((c.tc : Thread nD τ).loc main_arg10)) :=
  (W2_of_ne m ρ c main_arg10 (by decide)).trans (w1_arg10 m ρ c)

/-! ## The first hidden features, and the second launch's entry -/

theorem w5_v46 : W5 m ρ c (Proc.devRef .tc main_v46) = val_main_v44 (F := Ideal) (m ((c.tc : Thread nD τ).loc main_arg0)) (m ((c.tc : Thread nD τ).loc main_arg1)) (m ((c.tc : Thread nD τ).loc main_arg3)) (m ((c.tc : Thread nD τ).loc main_arg4)) :=
  s1_v46 (W2 m ρ c) _ _ _ _ (w2_v29 m ρ c) (w2_v3 m ρ c) (w2_v6 m ρ c) (w2_v26 m ρ c) (w2_arg4 m ρ c)
theorem w5_v47 : W5 m ρ c (Proc.devRef .tc main_v47) = shapeCast S1x128 zeros128 shapeCasts_S128_S1x128 :=
  (s1_v47 (W2 m ρ c)).trans (congrArg (fun v => shapeCast S1x128 v shapeCasts_S128_S1x128) (w2_v27 m ρ c))
theorem w5_v3 : W5 m ρ c (Proc.devRef .tc main_v3) = val_main_v3 (F := Ideal) (m ((c.tc : Thread nD τ).loc main_arg1)) :=
  (s1_v3 (W2 m ρ c)).trans (w2_v3 m ρ c)
theorem w5_v6 : W5 m ρ c (Proc.devRef .tc main_v6) = val_main_v6 (F := Ideal) (m ((c.tc : Thread nD τ).loc main_arg1)) :=
  (s1_v6 (W2 m ρ c)).trans (w2_v6 m ρ c)
theorem w5_v26 : W5 m ρ c (Proc.devRef .tc main_v26) = val_main_v26 (F := Ideal) (m ((c.tc : Thread nD τ).loc main_arg1)) :=
  (s1_v26 (W2 m ρ c)).trans (w2_v26 m ρ c)
theorem w5_v27 : W5 m ρ c (Proc.devRef .tc main_v27) = zeros128 :=
  (s1_v27 (W2 m ρ c)).trans (w2_v27 m ρ c)
theorem w5_arg2 : W5 m ρ c (Proc.devRef .tc main_arg2) = (m ((c.tc : Thread nD τ).loc main_arg2)) :=
  (s1_arg2 (W2 m ρ c)).trans (w2_arg2 m ρ c)
theorem w5_arg5 : W5 m ρ c (Proc.devRef .tc main_arg5) = (m ((c.tc : Thread nD τ).loc main_arg5)) :=
  (s1_arg5 (W2 m ρ c)).trans (w2_arg5 m ρ c)
theorem w5_arg6 : W5 m ρ c (Proc.devRef .tc main_arg6) = (m ((c.tc : Thread nD τ).loc main_arg6)) :=
  (s1_arg6 (W2 m ρ c)).trans (w2_arg6 m ρ c)
theorem w5_arg7 : W5 m ρ c (Proc.devRef .tc main_arg7) = (m ((c.tc : Thread nD τ).loc main_arg7)) :=
  (s1_arg7 (W2 m ρ c)).trans (w2_arg7 m ρ c)
theorem w5_arg8 : W5 m ρ c (Proc.devRef .tc main_arg8) = (m ((c.tc : Thread nD τ).loc main_arg8)) :=
  (s1_arg8 (W2 m ρ c)).trans (w2_arg8 m ρ c)
theorem w5_arg9 : W5 m ρ c (Proc.devRef .tc main_arg9) = (m ((c.tc : Thread nD τ).loc main_arg9)) :=
  (s1_arg9 (W2 m ρ c)).trans (w2_arg9 m ρ c)
theorem w5_arg10 : W5 m ρ c (Proc.devRef .tc main_arg10) = (m ((c.tc : Thread nD τ).loc main_arg10)) :=
  (s1_arg10 (W2 m ρ c)).trans (w2_arg10 m ρ c)

/-! ## The second launch: the first hidden features times `W2` -/

theorem w6_v48 : W6 m ρ c (Proc.devRef .tc main_v48) = val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W6_arr m ρ c 3).trans ?_
  refine dense_eq_dot (val_main_v44 (F := Ideal) (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)) (shapeCast S1x128 zeros128 shapeCasts_S128_S1x128) _ (zero_row zeros128 rfl) (fun r j => ?_)
  exact Cert.KernelIdeal.Dense.region1_array (V5 m ρ) c _ _ _ (w5_v46 m ρ c) (w5_arg5 m ρ c) (w5_v47 m ρ c) r j
theorem w6_v3 : W6 m ρ c (Proc.devRef .tc main_v3) = val_main_v3 (F := Ideal) (m ((c.tc : Thread nD τ).loc main_arg1)) :=
  (W6_of_ne m ρ c main_v3 (by decide)).trans (w5_v3 m ρ c)
theorem w6_v6 : W6 m ρ c (Proc.devRef .tc main_v6) = val_main_v6 (F := Ideal) (m ((c.tc : Thread nD τ).loc main_arg1)) :=
  (W6_of_ne m ρ c main_v6 (by decide)).trans (w5_v6 m ρ c)
theorem w6_v26 : W6 m ρ c (Proc.devRef .tc main_v26) = val_main_v26 (F := Ideal) (m ((c.tc : Thread nD τ).loc main_arg1)) :=
  (W6_of_ne m ρ c main_v26 (by decide)).trans (w5_v26 m ρ c)
theorem w6_v27 : W6 m ρ c (Proc.devRef .tc main_v27) = zeros128 :=
  (W6_of_ne m ρ c main_v27 (by decide)).trans (w5_v27 m ρ c)
theorem w6_arg2 : W6 m ρ c (Proc.devRef .tc main_arg2) = (m ((c.tc : Thread nD τ).loc main_arg2)) :=
  (W6_of_ne m ρ c main_arg2 (by decide)).trans (w5_arg2 m ρ c)
theorem w6_arg6 : W6 m ρ c (Proc.devRef .tc main_arg6) = (m ((c.tc : Thread nD τ).loc main_arg6)) :=
  (W6_of_ne m ρ c main_arg6 (by decide)).trans (w5_arg6 m ρ c)
theorem w6_arg7 : W6 m ρ c (Proc.devRef .tc main_arg7) = (m ((c.tc : Thread nD τ).loc main_arg7)) :=
  (W6_of_ne m ρ c main_arg7 (by decide)).trans (w5_arg7 m ρ c)
theorem w6_arg8 : W6 m ρ c (Proc.devRef .tc main_arg8) = (m ((c.tc : Thread nD τ).loc main_arg8)) :=
  (W6_of_ne m ρ c main_arg8 (by decide)).trans (w5_arg8 m ρ c)
theorem w6_arg9 : W6 m ρ c (Proc.devRef .tc main_arg9) = (m ((c.tc : Thread nD τ).loc main_arg9)) :=
  (W6_of_ne m ρ c main_arg9 (by decide)).trans (w5_arg9 m ρ c)
theorem w6_arg10 : W6 m ρ c (Proc.devRef .tc main_arg10) = (m ((c.tc : Thread nD τ).loc main_arg10)) :=
  (W6_of_ne m ρ c main_arg10 (by decide)).trans (w5_arg10 m ρ c)

/-! ## The second hidden features, and the third launch's entry -/

theorem w9_v65 : W9 m ρ c (Proc.devRef .tc main_v65) = val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  s2_v65 (W6 m ρ c) _ _ _ _ _ _ (w6_v48 m ρ c) (w6_v3 m ρ c) (w6_v6 m ρ c) (w6_v26 m ρ c) (w6_arg6 m ρ c)
theorem w9_v66 : W9 m ρ c (Proc.devRef .tc main_v66) = shapeCast S1x128 zeros128 shapeCasts_S128_S1x128 :=
  (s2_v66 (W6 m ρ c)).trans (congrArg (fun v => shapeCast S1x128 v shapeCasts_S128_S1x128) (w6_v27 m ρ c))
theorem w9_v3 : W9 m ρ c (Proc.devRef .tc main_v3) = val_main_v3 (F := Ideal) (m ((c.tc : Thread nD τ).loc main_arg1)) :=
  (s2_v3 (W6 m ρ c)).trans (w6_v3 m ρ c)
theorem w9_v6 : W9 m ρ c (Proc.devRef .tc main_v6) = val_main_v6 (F := Ideal) (m ((c.tc : Thread nD τ).loc main_arg1)) :=
  (s2_v6 (W6 m ρ c)).trans (w6_v6 m ρ c)
theorem w9_v26 : W9 m ρ c (Proc.devRef .tc main_v26) = val_main_v26 (F := Ideal) (m ((c.tc : Thread nD τ).loc main_arg1)) :=
  (s2_v26 (W6 m ρ c)).trans (w6_v26 m ρ c)
theorem w9_arg2 : W9 m ρ c (Proc.devRef .tc main_arg2) = (m ((c.tc : Thread nD τ).loc main_arg2)) :=
  (s2_arg2 (W6 m ρ c)).trans (w6_arg2 m ρ c)
theorem w9_arg7 : W9 m ρ c (Proc.devRef .tc main_arg7) = (m ((c.tc : Thread nD τ).loc main_arg7)) :=
  (s2_arg7 (W6 m ρ c)).trans (w6_arg7 m ρ c)
theorem w9_arg8 : W9 m ρ c (Proc.devRef .tc main_arg8) = (m ((c.tc : Thread nD τ).loc main_arg8)) :=
  (s2_arg8 (W6 m ρ c)).trans (w6_arg8 m ρ c)
theorem w9_arg9 : W9 m ρ c (Proc.devRef .tc main_arg9) = (m ((c.tc : Thread nD τ).loc main_arg9)) :=
  (s2_arg9 (W6 m ρ c)).trans (w6_arg9 m ρ c)
theorem w9_arg10 : W9 m ρ c (Proc.devRef .tc main_arg10) = (m ((c.tc : Thread nD τ).loc main_arg10)) :=
  (s2_arg10 (W6 m ρ c)).trans (w6_arg10 m ρ c)

/-! ## The third launch: the second hidden features times `W3` -/

theorem w10_v67 : W10 m ρ c (Proc.devRef .tc main_v67) = val_main_v63 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W10_arr m ρ c 3).trans ?_
  refine dense_eq_dot (val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (shapeCast S1x128 zeros128 shapeCasts_S128_S1x128) _ (zero_row zeros128 rfl) (fun r j => ?_)
  exact Cert.KernelIdeal.Dense.region2_array (V9 m ρ) c _ _ _ (w9_v65 m ρ c) (w9_arg7 m ρ c) (w9_v66 m ρ c) r j
theorem w10_v3 : W10 m ρ c (Proc.devRef .tc main_v3) = val_main_v3 (F := Ideal) (m ((c.tc : Thread nD τ).loc main_arg1)) :=
  (W10_of_ne m ρ c main_v3 (by decide)).trans (w9_v3 m ρ c)
theorem w10_v6 : W10 m ρ c (Proc.devRef .tc main_v6) = val_main_v6 (F := Ideal) (m ((c.tc : Thread nD τ).loc main_arg1)) :=
  (W10_of_ne m ρ c main_v6 (by decide)).trans (w9_v6 m ρ c)
theorem w10_v26 : W10 m ρ c (Proc.devRef .tc main_v26) = val_main_v26 (F := Ideal) (m ((c.tc : Thread nD τ).loc main_arg1)) :=
  (W10_of_ne m ρ c main_v26 (by decide)).trans (w9_v26 m ρ c)
theorem w10_arg2 : W10 m ρ c (Proc.devRef .tc main_arg2) = (m ((c.tc : Thread nD τ).loc main_arg2)) :=
  (W10_of_ne m ρ c main_arg2 (by decide)).trans (w9_arg2 m ρ c)
theorem w10_arg8 : W10 m ρ c (Proc.devRef .tc main_arg8) = (m ((c.tc : Thread nD τ).loc main_arg8)) :=
  (W10_of_ne m ρ c main_arg8 (by decide)).trans (w9_arg8 m ρ c)
theorem w10_arg9 : W10 m ρ c (Proc.devRef .tc main_arg9) = (m ((c.tc : Thread nD τ).loc main_arg9)) :=
  (W10_of_ne m ρ c main_arg9 (by decide)).trans (w9_arg9 m ρ c)
theorem w10_arg10 : W10 m ρ c (Proc.devRef .tc main_arg10) = (m ((c.tc : Thread nD τ).loc main_arg10)) :=
  (W10_of_ne m ρ c main_arg10 (by decide)).trans (w9_arg10 m ρ c)

/-! ## The pooled features, and the head's entry -/

theorem w11_v95 : W11 m ρ c (Proc.devRef .tc main_v95) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  s3_v95 (W10 m ρ c) _ _ _ _ _ _ _ _ _ (w10_v67 m ρ c) (w10_v3 m ρ c) (w10_v6 m ρ c) (w10_v26 m ρ c) (w10_arg8 m ρ c) (w10_arg2 m ρ c)
theorem w11_v96 : W11 m ρ c (Proc.devRef .tc main_v96) = shapeCast S1x2 (m ((c.tc : Thread nD τ).loc main_arg10)) shapeCasts_S2_S1x2 :=
  (s3_v96 (W10 m ρ c)).trans (congrArg (fun v => shapeCast S1x2 v shapeCasts_S2_S1x2) (w10_arg10 m ρ c))
theorem w11_arg9 : W11 m ρ c (Proc.devRef .tc main_arg9) = (m ((c.tc : Thread nD τ).loc main_arg9)) :=
  (s3_arg9 (W10 m ρ c)).trans (w10_arg9 m ρ c)

/-! ## The head -/

/-- The returned array, as the last boundary holds it, is the reference's result at the kernel program's own
    arguments. -/
theorem w12_v97 : W12 m ρ c (Proc.devRef .tc main_v97) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W12_arr m ρ c 3).trans ?_
  refine head_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) _ (fun r j => ?_)
  exact Cert.KernelIdeal.Dense.region3_array (V11 m ρ) c _ _ _ (w11_v95 m ρ c) (w11_arg9 m ρ c) (w11_v96 m ρ c) r j

end Cert.KernelIdeal.Whole

end
-- ==== Proof.lean ====
/-
  A three-layer graph convolution network (per layer: a dense layer, then for every edge with its self-loop the
  source's row scaled by the symmetric degree normalisation and added into the destination's row, then the bias;
  a `max` with zero after the first two layers), a mean pool over the graph ids and a linear head — computed
  by a program whose four dense layers are launches of one kernel body (rows in ten blocks; both operands rounded
  to a narrower float format on the way into the matrix unit; a zero accumulator; a bias row) among stretches of
  the same host operations the reference uses, against the reference's `x @ W` throughout.

  On the extended reals the roundings are the identity and a matrix product into a zero accumulator is the plain
  sum, so each launch leaves `x · W + b` with `b` the zero row in the hidden layers (`a + 0 = a` for every
  extended real) and the head's bias in the last: entry by entry the reference's `dot_general`, plus in the head
  the reference's broadcast bias.  Every other operation is shared, so the two results are one function of the
  arguments; no finiteness is needed, and the precondition is not opened.

  The three programs' runs (termination, no fault, arguments unchanged) are the generated frames and the
  reference's generated run; the idealization rewrote nothing, so what it must preserve is trivial.
-/
import proofs.«154548_j48369921688195_1_alg».proof.Defs
import proofs.«154548_j48369921688195_1_alg».proof.Proof.Gen.Kernel
import proofs.«154548_j48369921688195_1_alg».proof.Proof.Gen.Kernel.Frame
import proofs.«154548_j48369921688195_1_alg».proof.Proof.Gen.KernelIdeal
import proofs.«154548_j48369921688195_1_alg».proof.Proof.Gen.KernelIdeal.Frame
import proofs.«154548_j48369921688195_1_alg».proof.Proof.Gen.ReferenceIdeal
import proofs.«154548_j48369921688195_1_alg».proof.Proof.Gen.ReferenceIdeal.Run
import proofs.«154548_j48369921688195_1_alg».proof.Proof.Gen.ReferenceIdeal.Read
import proofs.«154548_j48369921688195_1_alg».proof.Proof.Gen.Pre_finite_inputs
import proofs.«154548_j48369921688195_1_alg».proof.Proof.KernelRun
import proofs.«154548_j48369921688195_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result at those arguments. -/
theorem algebraic : Cert.algebraic_KernelIdeal_ReferenceIdeal := by
  intro m ρ m' ρ' _ hagree
  refine ⟨fun c => Cert.ReferenceIdeal.Read.val_main_v95 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Whole.w12_v97 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
